-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S8x2048x128 : Shape := ⟨3, ![8, 2048, 128]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S8x2048x128 : S_.BroadcastsInDim S8x2048x128 (![] : Fin 0 → Fin S8x2048x128.rank)
  reducesTo_S8x2048x128_S_d0_1_2 : S8x2048x128.ReducesTo [0, 1, 2] S_

variable [Facts]

def fn {F : FTy → Type} [FloatOps F] (main_arg0 : FVec F S8x2048x2048 .f32) (main_arg1 : FVec F S8x2048x128 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S8x2048x128 .f32 := Host.absf main_arg1
  let main_cst_0 : FVec F S_ .f32 := constant S_ .f32 0x7F800000#32
  let main_v5 : FVec F S8x2048x128 .f32 := broadcastInDim S8x2048x128 ![] bcast_S_S8x2048x128 main_cst_0
  let main_v6 : IVec S8x2048x128 1 := cmpf .olt main_v4 main_v5
  let main_c_1 : IVec S_ 1 := constantI S_ 1 1#1
  let main_v7 : IVec S_ 1 := (fun x v => Host.reduce IntOp.andi x v reducesTo_S8x2048x128_S_d0_1_2 h_S_) main_v6 main_c_1
  let main_v8 : IVec S_ 1 := andi main_v3 main_v7
  main_v8
-- ==== Kernel.lean ====
abbrev S8x2048x2048 : Shape := ⟨3, ![8, 2048, 2048]⟩
abbrev S8x2048x128 : Shape := ⟨3, ![8, 2048, 128]⟩
abbrev S8x1x1 : Shape := ⟨3, ![8, 1, 1]⟩
abbrev S1x1024x1024 : Shape := ⟨3, ![1, 1024, 1024]⟩
abbrev S1x1024x128 : Shape := ⟨3, ![1, 1024, 128]⟩
abbrev S1x1x1 : Shape := ⟨3, ![1, 1, 1]⟩
abbrev S1x1 : Shape := ⟨2, ![1, 1]⟩
abbrev S1024x128 : Shape := ⟨2, ![1024, 128]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S1 : Shape := ⟨1, ![1]⟩
abbrev S_ : Shape := ⟨0, ![]⟩

abbrev nBuf : Space → Nat
  | .hbm => 7
  | .vmem => 9
  | .smem => 0
  | _ => 0

abbrev bufTy : (tb : Table) → Fin (tcTables nBuf tb) → BufTy
  | .hbm, ⟨0, _⟩ => ⟨S8x2048x2048, .f32⟩
  | .hbm, ⟨1, _⟩ => ⟨S8x2048x128, .f32⟩
  | .hbm, ⟨2, _⟩ => ⟨S8x1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x128, .f32⟩
  | .local _ .vmem, ⟨5, _⟩ => ⟨S1x1024x128, .f32⟩
  | .local _ .vmem, ⟨6, _⟩ => ⟨S1x1x1, .f32⟩
  | .local _ .vmem, ⟨7, _⟩ => ⟨S1x1x1, .f32⟩
  | .local _ .vmem, ⟨8, _⟩ => ⟨S1x1, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg1 : BitVec 32 := BitVec.ofNat 32 (i 1).val
  let c1_i32 : BitVec 32 := 1#32
  let v39 : BitVec 1 := Scalar.cmpi .eq arg1 c1_i32
  let arg2 : BitVec 32 := BitVec.ofNat 32 (i 2).val
  let c1_i32_20 : BitVec 32 := 1#32
  let v40 : BitVec 1 := Scalar.cmpi .eq arg2 c1_i32_20
  let v41 : BitVec 1 := Scalar.andi v39 v40
  let v42 : BitVec 32 := Scalar.extui v41
  let c0_i32_21 : BitVec 32 := 0#32
  let v43 : BitVec 1 := Scalar.cmpi .ne v42 c0_i32_21
  v43

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  bitsLt_bf16_f32 : FTy.bits .bf16 < FTy.bits .f32
  reduces_S1024x128_S1024 : S1024x128.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S1024x1024_S1024 : S1024x1024.Reduces [1] S1024
  reduces_S1024x1_S1 : S1024x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S8x1x1_S_d0_1_2 : S8x1x1.ReducesTo [0, 1, 2] S_
  h_S_ : 0 < S_.numel
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x2048x2048.size a
  hwx0_0 : ∀ i : grid0.Coords, EltTy.bits .f32 = 32 ∨ (Rect.block (s := S8x2048x2048) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S8x2048x128.size a
  hwx0_1 : ∀ i : grid0.Coords, EltTy.bits .f32 = 32 ∨ (Rect.block (s := S8x2048x128) S1x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x128.size a ≤ S8x2048x128.size a
  hwx0_2 : ∀ i : grid0.Coords, EltTy.bits .f32 = 32 ∨ (Rect.block (s := S8x2048x128) S1x1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S8x1x1.size a
  hwx0_3 : ∀ i : grid0.Coords, EltTy.bits .f32 = 32 ∨ (Rect.block (s := S8x1x1) S1x1x1.size (cc0_transform_3 i) (hinb0_3 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x2048x2048 : Shape := ⟨3, ![8, 2048, 2048]⟩
abbrev S8x2048x128 : Shape := ⟨3, ![8, 2048, 128]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x128, .f32⟩
  | .hbm, ⟨2, _⟩ => ⟨S8x2048x128, .f32⟩
  | .hbm, ⟨3, _⟩ => ⟨S_, .f32⟩
  | .hbm, ⟨4, _⟩ => ⟨S8x2048, .f32⟩
  | .hbm, ⟨5, _⟩ => ⟨S8x2048x1, .f32⟩
  | .hbm, ⟨6, _⟩ => ⟨S8x2048x2048, .f32⟩
  | .hbm, ⟨7, _⟩ => ⟨S8x1x2048, .f32⟩
  | .hbm, ⟨8, _⟩ => ⟨S8x2048x2048, .f32⟩
  | .hbm, ⟨9, _⟩ => ⟨S8x2048x2048, .f32⟩
  | .hbm, ⟨10, _⟩ => ⟨S8x2048x2048, .f32⟩
  | .hbm, ⟨11, _⟩ => ⟨S_, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S_, .f32⟩
  | .hbm, ⟨16, _⟩ => ⟨S8x2048x2048, .f32⟩
  | .hbm, ⟨17, _⟩ => ⟨S8x2048x2048, .f32⟩
  | .hbm, ⟨18, _⟩ => ⟨S8x2048x2048, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  reducesTo_S8x2048x128_S8x2048_d2 : S8x2048x128.ReducesTo [2] S8x2048
  h_S_ : 0 < S_.numel
  bcast_S8x2048_S8x2048x1_0_1 : S8x2048.BroadcastsInDim S8x2048x1 (![0, 1] : Fin 2 → Fin S8x2048x1.rank)
  transposes_S8x2048x1_S8x1x2048_0_2_1 : S8x2048x1.Transposes [0, 2, 1] S8x1x2048
  bcast_S8x2048x1_S8x2048x2048_0_1_2 : S8x2048x1.BroadcastsInDim S8x2048x2048 (![0, 1, 2] : Fin 3 → Fin S8x2048x2048.rank)
  bcast_S8x1x2048_S8x2048x2048_0_1_2 : S8x1x2048.BroadcastsInDim S8x2048x2048 (![0, 1, 2] : Fin 3 → Fin S8x2048x2048.rank)
  bcast_S_S8x2048x2048 : S_.BroadcastsInDim S8x2048x2048 (![] : Fin 0 → Fin S8x2048x2048.rank)
  reducesTo_S8x2048x2048_S_d0_1_2 : S8x2048x2048.ReducesTo [0, 1, 2] S_
  dot_S8x2048x128_S8x2048x128_S8x2048x2048_2_2_1_1_0_0_wf : DotDims.WF S8x2048x128 S8x2048x128 S8x2048x2048 [2] [2] [1] [1] [0] [0]

variable [Facts₀]

def dot_S8x2048x128_S8x2048x128_S8x2048x2048_2_2_1_1_0_0 : DotDims S8x2048x128 S8x2048x128 S8x2048x2048 where
  lhsContracting := [2]
  rhsContracting := [2]
  lhsNonContracting := [1]
  rhsNonContracting := [1]
  lhsBatch := [0]
  rhsBatch := [0]
  wf := dot_S8x2048x128_S8x2048x128_S8x2048x2048_2_2_1_1_0_0_wf

class Facts : Prop extends Facts₀ where

variable [Facts]
-- ==== Proof.KRuns.lean ====
/-
  The tiled smoothness kernel, read at any float instance: what its frame proof is stated over.

  The grid has 8 · 2 · 2 = 32 points; point t is graph b = t / 4, row tile i = (t % 4) / 2, column tile j = t % 2.
  The body resets the one-cell accumulator at the first tile of a graph (t % 4 = 0), adds the tile's weighted sum
  to it at every point, and copies it to the graph's output cell at the last tile (t % 4 = 3). Between those
  points the output window's staging cell is left as it was found and is not written back.
  Here: the arrays as the region finds them, each window's block read off its array, the two branch conditions
  decided over the 32 points, where the output window is idle, and names for the staging buffers.
-/
import proofs.«135550_j86766929314299_2_alg».proof.Proof.Gen.Kernel.Launch
import proofs.«135550_j86766929314299_2_alg».proof.Proof.Gen.Kernel.Skeleton
import proofs.«135550_j86766929314299_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffer contents when the region is entered: nothing runs before it, so the launch contents. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem V_eq (c : Dev nD) (b : Ref sig .tc) : V m c b = m ((c : Thread nD τ).loc b) := rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two branches, decided over the grid -/

/-- The accumulator is reset: row tile 0 and column tile 0. -/
abbrev cond0_0 (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- That is the first of a graph's four points. -/
theorem hcond0_0 : ∀ t : Fin cfg0.N, cond0_0 (grid0.coords t) ↔ t.val % 4 = 0 :=
  (by decide +kernel : ∀ t : Fin grid0.N, cond0_0 (grid0.coords t) ↔ t.val % 4 = 0)

/-- The accumulator is copied out: row tile 1 and column tile 1. -/
abbrev cond0_1 (i : grid0.Coords) : Prop := k0_cond2 i = 1#1
/-- That is the last of a graph's four points. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from a graph's last point nothing is stored into the output cell, -/
theorem idleAt0_3 : ∀ t : Fin cfg0.N, ¬cond0_1 (grid0.coords t) → cfg0.idle 3 (grid0.coords t) = true := by decide +kernel
/-- and it is not written back there; -/
theorem noFlush0_3 : ∀ t : Fin cfg0.N, ¬cond0_1 (grid0.coords t) → (cfg0.win 3).flush t = false := by decide +kernel
/-- at the last point it is stored. -/
theorem liveAt0_3 : ∀ t : Fin cfg0.N, cond0_1 (grid0.coords t) → cfg0.idle 3 (grid0.coords t) = false := by decide +kernel

/-! ## The staging buffers by name -/

abbrev VO0_3 : View sig .tc .vmem S1x1x1 .f32 := (Memref.whole cc0_stg3_0 : Memref sig .tc .vmem S1x1x1 .f32).view
abbrev ms0_0 (t : Fin cfg0.N) : Memref sig .tc .vmem S1x1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1 .f32 := win0_3.stage (cfg0.slots t 3)
abbrev hs0_3 (t : Fin cfg0.N) : (ms0_3 t).IsWhole := hstage0_3 ((cfg0.slots t 3).cast nbuf0_3)
/-- The accumulator cell: a whole scoped buffer of the kernel's own, -/
abbrev scM0_0 : Memref sig .tc .vmem S1x1 .f32 := Memref.whole cc0_scratch0
/-- and as a view, through which what it holds is stated. -/
abbrev VS0_0 : View sig .tc .vmem S1x1 .f32 := scM0_0.view

/-- The scoped rest of the region is the accumulator cell at some contents, beside the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.KRunA.lean ====
/-
  The body at a graph's FIRST tile (the accumulator is reset, nothing is copied out): on whole staging buffers
  holding the three input blocks, the output cell at any contents handed back untouched, and the accumulator at
  anything, it runs to the end leaving the inputs as they were and the accumulator written by two stores — the
  reset, then the reset value plus the tile's weighted sum. The list of stored pieces is found by the run.
-/
import proofs.«135550_j86766929314299_2_alg».proof.Proof.KRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1x1 .f32) (harg6 : arg6.IsWhole) (arg7 : Memref sig .tc .vmem S1x1 .f32) (harg7 : arg7.IsWhole) (hc0 : cond0_0 i) (hc1 : ¬cond0_1 i)
    (x0 : Vec F S1x1024x1024 .f32) (x1 : Vec F S1x1024x128 .f32) (x2 : Vec F S1x1024x128 .f32) :
    { LS0 : List (View.Piece (Elt F) S1x1 .f32) //
      ∀ (xi3 : Vec F S1x1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__smoothness_kernel i arg3 harg3 arg4 harg4 arg5 harg5 arg6 harg6 arg7 harg7) K } := by
  refine ⟨?_, fun xi3 E K => ?run⟩
  case run =>
    simp only [cc0__smoothness_kernel_eq_skeleton]; unfold cc0__smoothness_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.KRunB.lean ====
/-
  The body at a graph's MIDDLE tiles (no reset, nothing copied out): the accumulator holds what the tile before
  left; the body adds the tile's weighted sum to it with one store, and hands the output cell back untouched.
-/
import proofs.«135550_j86766929314299_2_alg».proof.Proof.KRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (hc1 : ¬cond0_1 i)
    (x0 : Vec F S1x1024x1024 .f32) (x1 : Vec F S1x1024x128 .f32) (x2 : Vec F S1x1024x128 .f32) (xs0 : Vec F S1x1 .f32) :
    { LS0 : List (View.Piece (Elt F) S1x1 .f32) //
      ∀ (xi3 : Vec F S1x1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__smoothness_kernel i arg3 harg3 arg4 harg4 arg5 harg5 arg6 harg6 arg7 harg7) K } := by
  refine ⟨?_, fun xi3 E K => ?run⟩
  case run =>
    simp only [cc0__smoothness_kernel_eq_skeleton]; unfold cc0__smoothness_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.KRunC.lean ====
/-
  The body at a graph's LAST tile (no reset; the accumulator is copied out): the accumulator holds what the tile
  before left; the body adds the tile's weighted sum to it with one store, reads it back and stores it into the
  output cell with one store.
-/
import proofs.«135550_j86766929314299_2_alg».proof.Proof.KRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_C (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (hc1 : cond0_1 i)
    (x0 : Vec F S1x1024x1024 .f32) (x1 : Vec F S1x1024x128 .f32) (x2 : Vec F S1x1024x128 .f32) (xs0 : Vec F S1x1 .f32) :
    Σ' (L3 : List (View.Piece (Elt F) S1x1x1 .f32)), { LS0 : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__smoothness_kernel i arg3 harg3 arg4 harg4 arg5 harg5 arg6 harg6 arg7 harg7) K } := by
  refine ⟨?_, ?_, fun E K => ?run⟩
  case run =>
    simp only [cc0__smoothness_kernel_eq_skeleton]; unfold cc0__smoothness_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.KFrame.lean ====
/-
  The frame of the tiled smoothness kernel, at any float instance: what the accumulator cell and the output cell
  hold after each of the 32 points, the proof data of the one pipeline, and the body's obligation at every point.

  After a graph's first tile the accumulator holds what the reset-and-add leaves; after each later tile, what
  the add leaves over the tile before; at the graph's last tile the output cell takes what the copy leaves. The
  two windows that read the embeddings hold that array at complementary half shares; the weights and the output
  are held whole.
-/
import proofs.«135550_j86766929314299_2_alg».proof.Proof.KRunA
import proofs.«135550_j86766929314299_2_alg».proof.Proof.KRunB
import proofs.«135550_j86766929314299_2_alg».proof.Proof.KRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, read back from its stores -/

/-- The first tile's two stores cover the accumulator cell. -/
theorem scover0_A_0 (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1x1 .f32) (harg6 : arg6.IsWhole) (arg7 : Memref sig .tc .vmem S1x1 .f32) (harg7 : arg7.IsWhole) (hc0 : cond0_0 i) (hc1 : ¬cond0_1 i) (x0 : Vec F S1x1024x1024 .f32) (x1 : Vec F S1x1024x128 .f32) (x2 : Vec F S1x1024x128 .f32) (y : S1x1.Idx) :
    ∃ pc ∈ (kernelRun0_A c i arg3 harg3 arg4 harg4 arg5 harg5 arg6 harg6 arg7 harg7 hc0 hc1 x0 x1 x2).1, y ∈ pc.1.set :=
  View.cover_of_tiledL (kernelRun0_A c i arg3 harg3 arg4 harg4 arg5 harg5 arg6 harg6 arg7 harg7 hc0 hc1 x0 x1 x2).1 S1x1.size (by sl_kernel_rfl) y

/-- What the first tile leaves in the accumulator. -/
def sout0_A_0 (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1x1 .f32) (harg6 : arg6.IsWhole) (arg7 : Memref sig .tc .vmem S1x1 .f32) (harg7 : arg7.IsWhole) (hc0 : cond0_0 i) (hc1 : ¬cond0_1 i) (x0 : Vec F S1x1024x1024 .f32) (x1 : Vec F S1x1024x128 .f32) (x2 : Vec F S1x1024x128 .f32) : Vec F S1x1 .f32 :=
  VS0_0.read (Elt F) (VS0_0.writes (Elt F) VS0_0.junk (kernelRun0_A c i arg3 harg3 arg4 harg4 arg5 harg5 arg6 harg6 arg7 harg7 hc0 hc1 x0 x1 x2).1)

/-- A middle tile's store covers the accumulator cell. -/
theorem scover0_B_0 (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (hc1 : ¬cond0_1 i) (x0 : Vec F S1x1024x1024 .f32) (x1 : Vec F S1x1024x128 .f32) (x2 : Vec F S1x1024x128 .f32) (xs0 : Vec F S1x1 .f32) (y : S1x1.Idx) :
    ∃ pc ∈ (kernelRun0_B c i arg3 harg3 arg4 harg4 arg5 harg5 arg6 harg6 arg7 harg7 hc0 hc1 x0 x1 x2 xs0).1, y ∈ pc.1.set :=
  View.cover_of_tiledL (kernelRun0_B c i arg3 harg3 arg4 harg4 arg5 harg5 arg6 harg6 arg7 harg7 hc0 hc1 x0 x1 x2 xs0).1 S1x1.size (by sl_kernel_rfl) y

/-- What a middle tile leaves in the accumulator, over what it found there. -/
def sout0_B_0 (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (hc1 : ¬cond0_1 i) (x0 : Vec F S1x1024x1024 .f32) (x1 : Vec F S1x1024x128 .f32) (x2 : Vec F S1x1024x128 .f32) (xs0 : Vec F S1x1 .f32) : Vec F S1x1 .f32 :=
  VS0_0.read (Elt F) (VS0_0.writes (Elt F) VS0_0.junk (kernelRun0_B c i arg3 harg3 arg4 harg4 arg5 harg5 arg6 harg6 arg7 harg7 hc0 hc1 x0 x1 x2 xs0).1)

/-- The last tile's store covers the output cell, -/
theorem cover0_C_3 (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (hc1 : cond0_1 i) (x0 : Vec F S1x1024x1024 .f32) (x1 : Vec F S1x1024x128 .f32) (x2 : Vec F S1x1024x128 .f32) (xs0 : Vec F S1x1 .f32) (y : S1x1x1.Idx) :
    ∃ pc ∈ (kernelRun0_C c i arg3 harg3 arg4 harg4 arg5 harg5 arg6 harg6 arg7 harg7 hc0 hc1 x0 x1 x2 xs0).1, y ∈ pc.1.set :=
  View.cover_of_tiledL (kernelRun0_C c i arg3 harg3 arg4 harg4 arg5 harg5 arg6 harg6 arg7 harg7 hc0 hc1 x0 x1 x2 xs0).1 S1x1x1.size (by sl_kernel_rfl) y

/-- which then holds this; -/
def out0_C_3 (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (hc1 : cond0_1 i) (x0 : Vec F S1x1024x1024 .f32) (x1 : Vec F S1x1024x128 .f32) (x2 : Vec F S1x1024x128 .f32) (xs0 : Vec F S1x1 .f32) : Vec F S1x1x1 .f32 :=
  VO0_3.read (Elt F) (VO0_3.writes (Elt F) VO0_3.junk (kernelRun0_C c i arg3 harg3 arg4 harg4 arg5 harg5 arg6 harg6 arg7 harg7 hc0 hc1 x0 x1 x2 xs0).1)

/-- its store into the accumulator covers that cell, -/
theorem scover0_C_0 (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (hc1 : cond0_1 i) (x0 : Vec F S1x1024x1024 .f32) (x1 : Vec F S1x1024x128 .f32) (x2 : Vec F S1x1024x128 .f32) (xs0 : Vec F S1x1 .f32) (y : S1x1.Idx) :
    ∃ pc ∈ (kernelRun0_C c i arg3 harg3 arg4 harg4 arg5 harg5 arg6 harg6 arg7 harg7 hc0 hc1 x0 x1 x2 xs0).2.1, y ∈ pc.1.set :=
  View.cover_of_tiledL (kernelRun0_C c i arg3 harg3 arg4 harg4 arg5 harg5 arg6 harg6 arg7 harg7 hc0 hc1 x0 x1 x2 xs0).2.1 S1x1.size (by sl_kernel_rfl) y

/-- which then holds this. -/
def sout0_C_0 (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (hc1 : cond0_1 i) (x0 : Vec F S1x1024x1024 .f32) (x1 : Vec F S1x1024x128 .f32) (x2 : Vec F S1x1024x128 .f32) (xs0 : Vec F S1x1 .f32) : Vec F S1x1 .f32 :=
  VS0_0.read (Elt F) (VS0_0.writes (Elt F) VS0_0.junk (kernelRun0_C c i arg3 harg3 arg4 harg4 arg5 harg5 arg6 harg6 arg7 harg7 hc0 hc1 x0 x1 x2 xs0).2.1)

/-- At a point that stores nothing into the output cell: contents nothing consults (the cell is neither written
    back there nor read at the next point). -/
def idleOut : Vec F S1x1x1 .f32 := VO0_3.read (Elt F) VO0_3.junk

/-! ## Point by point -/

/-- THE ACCUMULATION: what the output cell's staging buffer and the accumulator hold after the body at position `n`. -/
def outsAt0 (c : Dev nD) : (n : ℕ) → n < cfg0.N → Vec F S1x1x1 .f32 × Vec F S1x1 .f32
  | 0, hn => (idleOut, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 4 = 0 then
      if h1 : (n + 1) % 4 = 3 then
        False.elim (by omega)
      else
        (idleOut, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 4 = 3 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2)
      else
        (idleOut, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2)

theorem outsAt0_A (c : Dev nD) (t : Fin cfg0.N) (h0 : t.val % 4 = 0) (h1 : ¬t.val % 4 = 3) :
    outsAt0 m c t.val t.isLt = (idleOut, sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (idleOut, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2,
      sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator at anything; afterwards at
    what the point before left; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data on core `c`: the arrays as the region finds them; after the body each input's buffer at its
    block and the output's at `outsAt0`; the invariant `PhiS`; the weights and the output held whole, the
    embeddings at the left half share by the row window and at the right half share by the column window;
    nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

/-- Each input's current staging buffer holds its block at every point, fetched there or not (between two fetches the
    window's block index has not moved, and the body leaves the block in place). -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point. The inputs' buffers hold their blocks; `t % 4` says which case the point is in; the
    invariant hands the body the accumulator at what the point before left (at anything at the very first point)
    and takes it back at this point's contents; away from a graph's last tile the output cell goes back as found;
    the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val % 4 = 0
  · by_cases h1 : t.val % 4 = 3
    · exfalso; omega
    · rw [Dat.leavesExact_idle (dats m 0 c) 3 t (idleAt0_3 t (fun h => h1 ((hcond0_1 t).mp h))) (noFlush0_3 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk m c 0 t) (iblk m c 1 t) (iblk m c 2 t)).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk m c 0 t) (iblk m c 1 t) (iblk m c 2 t)).2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 4 = 3
    · rw [show (dats m 0 c).leavesExact 3 t = owns (c : Thread nD τ) (ms0_3 t) fullShare ((dats m 0 c).after 3 t) from by
        unfold Dat.leavesExact; rw [liveAt0_3 t ((hcond0_1 t).mpr h1)], after0_3]
      rw [outsAt0_C m c t h0 h1]
      unfold out0_C_3 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk m c 0 t) (iblk m c 1 t) (iblk m c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _)
    · rw [Dat.leavesExact_idle (dats m 0 c) 3 t (idleAt0_3 t (fun h => h1 ((hcond0_1 t).mp h))) (noFlush0_3 t (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk m c 0 t) (iblk m c 1 t) (iblk m c 2 t) _).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the scoped rest back: the accumulator's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

end Cert.Kernel.Hand

end
-- ==== Proof.KLaunch.lean ====
/-
  The launch of the tiled smoothness kernel, at any float instance: @main is the kernel region followed by four
  host lines (a zero, the sum of the eight output cells, the constant 16384, the quotient). Two of the region's
  windows read the SAME array (the embeddings, once by row tile and once by column tile), so at the region's entry
  that array's buffer is split into two half shares, one per window, and rejoined by nothing: both halves stay
  with the pipeline to the end, where the array is read back unchanged. The host lines run over the output array
  and their own four result buffers only.
-/
import proofs.«135550_j86766929314299_2_alg».proof.Proof.KFrame
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps1_fresh : (hostOps1 : List (HloOp τ sig (Elt F))).Forall fun op => op.fresh = ∅ := by
  simp only [List.Forall]; repeat' constructor

/-- @main reduces to the region continued by the four host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-! ## The arrays at the region's entry -/

theorem share0_0 (c : Dev nD) : (dats m 0 c).share 0 = fullShare := rfl
theorem share0_1 (c : Dev nD) : (dats m 0 c).share 1 = fullShare.left := rfl
theorem share0_2 (c : Dev nD) : (dats m 0 c).share 2 = fullShare.right := rfl
theorem share0_3 (c : Dev nD) : (dats m 0 c).share 3 = fullShare := rfl

/-- The windows' arrays at contents `G`, one by one: the weights whole, the embeddings at the two half shares,
    the output whole. -/
theorem arrays_eq4 (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare} G 0) ∗ (((c : Thread nD τ).loc main_arg1) ↦{fullShare.left} G 1)
          ∗ (((c : Thread nD τ).loc main_arg1) ↦{fullShare.right} G 2) ∗ (((c : Thread nD τ).loc main_v0) ↦{fullShare} G 3)) := by
  unfold Dat.arrays
  rw [bigSep_W0, (arr_whole0 0).set_eq_univ, (arr_whole0 1).set_eq_univ, (arr_whole0 3).set_eq_univ,
    share0_0, share0_1, share0_2, share0_3]

/-- The three distinct buffers behind the four windows, one by one. -/
theorem arrBufs_eq3 (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
          ∗ (((c : Thread nD τ).loc main_v0) ↦{fullShare} W main_v0)) := by
  unfold Pipeline.arrBufs
  rw [bigSep_eq_bigSepL_of_eq [main_arg0, main_arg1, main_v0] (by decide) (by decide)]
  rfl

/-- A whole buffer held at the full share is its two halves. -/
theorem split_halves (c : Dev nD) (b : Ref sig .tc) (f : Buf (Elt F) ((c : Thread nD τ).loc b)) :
    ((((c : Thread nD τ).loc b) ↦{fullShare} f) : sProp 𝕄)
      ⊢ iprop((((c : Thread nD τ).loc b) ↦{fullShare.left} f) ∗ (((c : Thread nD τ).loc b) ↦{fullShare.right} f)) :=
  (pointsTo_share (PosShare.mem_left_op_right fullShare)).1

/-- ENTRY: the embeddings' buffer is split into its two halves, one for each window that reads it. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq3, arrays_eq4]
  iintro ⟨H0, H1, H3⟩
  ihave Hs := (split_halves c main_arg1 _) $$ H1
  icases Hs with ⟨H1l, H1r⟩
  isplitl [H0]; · iexact H0
  isplitl [H1l]; · iexact H1l
  isplitl [H1r]; · iexact H1r
  iexact H3

/-! ## The four host lines after the region -/

/-- The five buffers they touch: the output array they read, and their own four results. -/
def tailL : List (DevRef τ sig) :=
  [Proc.devRef .tc main_v0, Proc.devRef .tc main_cst, Proc.devRef .tc main_v1, Proc.devRef .tc main_cst_0, Proc.devRef .tc main_v2]

theorem tailL_nodup : (tailL : List (DevRef τ sig)).Nodup := by decide

theorem hostOps1_tail : ∀ op ∈ (hostOps1 : List (HloOp τ sig (Elt F))), op.bufs ⊆ (tailL : List (DevRef τ sig)).toFinset := by
  intro op hop
  simp only [hostOps1, List.mem_cons, List.mem_nil_iff, or_false] at hop
  rcases hop with rfl | rfl | rfl | rfl
  · rw [StableHlo.nullary_bufs]; decide
  · rw [StableHlo.binary_bufs]; decide
  · rw [StableHlo.nullary_bufs]; decide
  · rw [StableHlo.binary_bufs]; decide

/-- The buffer contents the host lines start from: the output array as the region left it (`X`), every other
    buffer as the region found it. -/
def tailV (c : Dev nD) (X : Buf (Elt F) ((c : Thread nD τ).loc main_v0)) : Valuation τ sig (Elt F) :=
  Function.update (V0 m c) (Proc.devRef .tc main_v0) X

theorem tailV_v0 (c : Dev nD) (X : Buf (Elt F) ((c : Thread nD τ).loc main_v0)) : tailV m c X (Proc.devRef .tc main_v0) = X :=
  Function.update_self _ _ _

theorem tailV_ne (c : Dev nD) (X : Buf (Elt F) ((c : Thread nD τ).loc main_v0)) (b : Ref sig .tc) (h : b ≠ main_v0) :
    tailV m c X (Proc.devRef .tc b) = V m c b :=
  Function.update_of_ne (StableHlo.devRef_ne_of_ne h) _ _

/-- The five buffers held at a valuation, one by one. -/
theorem held_tail (c : Dev nD) (W : Valuation τ sig (Elt F)) :
    (StableHlo.held (c : Thread nD τ) (tailL : List (DevRef τ sig)).toFinset W : sProp 𝕄)
      = iprop((((c : Thread nD τ).loc main_v0) ↦{fullShare} W (Proc.devRef .tc main_v0)) ∗ (((c : Thread nD τ).loc main_cst) ↦{fullShare} W (Proc.devRef .tc main_cst))
          ∗ (((c : Thread nD τ).loc main_v1) ↦{fullShare} W (Proc.devRef .tc main_v1)) ∗ (((c : Thread nD τ).loc main_cst_0) ↦{fullShare} W (Proc.devRef .tc main_cst_0))
          ∗ (((c : Thread nD τ).loc main_v2) ↦{fullShare} W (Proc.devRef .tc main_v2))) := by
  unfold StableHlo.held
  rw [bigSep_eq_bigSepL tailL tailL_nodup]
  rfl

/-- What the buffers hold after the four lines, from the output array at `X`. -/
def tailAfter (c : Dev nD) (X : Buf (Elt F) ((c : Thread nD τ).loc main_v0)) : Valuation τ sig (Elt F) :=
  StableHlo.after (List.flatten [hostOps1]) (tailV m c X)

/-- The lines do not write the output array. -/
theorem tailAfter_v0 (c : Dev nD) (X : Buf (Elt F) ((c : Thread nD τ).loc main_v0)) : tailAfter m c X (Proc.devRef .tc main_v0) = X := by
  unfold tailAfter
  rw [StableHlo.after_of_forall_not_mem _ _ ?_, tailV_v0]
  intro op hop
  simp only [List.flatten_cons, List.flatten_nil, List.append_nil, hostOps1, List.mem_cons, List.mem_nil_iff, or_false] at hop
  rcases hop with rfl | rfl | rfl | rfl <;>
    simp only [StableHlo.nullary_writes, StableHlo.binary_writes, Finset.mem_singleton] <;>
    exact StableHlo.devRef_ne_of_ne (by decide)

/-- The quotient they compute: the sum of the output array's cells from a zero, divided by 16384. -/
theorem tailAfter_v2 (c : Dev nD) (X : Buf (Elt F) ((c : Thread nD τ).loc main_v0)) :
    tailAfter m c X (Proc.devRef .tc main_v2)
      = Host.divf (Host.reduceAdd X (constant S_ .f32 0x00000000#32) reducesTo_S8x1x1_S_d0_1_2 h_S_) (constant S_ .f32 0x46800000#32) := by
  unfold tailAfter
  show StableHlo.after hostOps1 _ (Proc.devRef .tc main_v2) = _
  after_results
  rw [tailV_v0]

/-- The five buffers after the lines, one by one: the output array as it was, the four results as computed. -/
theorem held_tail_after (c : Dev nD) (X : Buf (Elt F) ((c : Thread nD τ).loc main_v0)) :
    (StableHlo.held (c : Thread nD τ) (tailL : List (DevRef τ sig)).toFinset (StableHlo.after (List.flatten [hostOps1]) (tailV m c X)) : sProp 𝕄)
      = iprop((((c : Thread nD τ).loc main_v0) ↦{fullShare} X) ∗ (((c : Thread nD τ).loc main_cst) ↦{fullShare} tailAfter m c X (Proc.devRef .tc main_cst))
          ∗ (((c : Thread nD τ).loc main_v1) ↦{fullShare} tailAfter m c X (Proc.devRef .tc main_v1)) ∗ (((c : Thread nD τ).loc main_cst_0) ↦{fullShare} tailAfter m c X (Proc.devRef .tc main_cst_0))
          ∗ (((c : Thread nD τ).loc main_v2) ↦{fullShare} tailAfter m c X (Proc.devRef .tc main_v2))) := by
  rw [held_tail, show StableHlo.after (List.flatten [hostOps1]) (tailV m c X) (Proc.devRef .tc main_v0) = X from tailAfter_v0 m c X]
  rfl

theorem tail_chain_eq : (Pipeline.chain [StableHlo.seq (hostOps1 : List (HloOp τ sig (Elt F)))] : Prog (TpuEff nD τ sig (Elt F) (Pipeline.Sig Λ₀ (Fin 1) fun p => (pcfgs (F := F) p).Adm) .tc) PUnit)
    = Pipeline.chain ([hostOps1].map StableHlo.seq ++ []) := rfl

set_option backward.isDefEq.respectTransparency.types false in
/-- THE LINES AFTER THE REGION: from the region's exit — the arrays at their final contents, the four result buffers as
    the region found them — the lines run over the output array and those four buffers, and hand the arrays back as
    they were and the four buffers at what the lines computed. -/
theorem htail (c : Dev nD) (Q' : PUnit → sProp 𝕄) :
    iprop((iprop((dats m 0 c).arrays ((dats m 0 c).arrAt · cfg0.N)
              ∗ Pipeline.unscopedRestP (Ix := Unit) (Name := ℕ) (U := UR sig nD τ) (Lvl := ℕ) Pipeline.Prefetch.none spec0 c (fun b => tailAfter m c ((dats m 0 c).arrAt 3 cfg0.N) (Proc.devRef .tc b))) -∗ Q' ⟨⟩)
        ∗ boundary (c : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (defs (F := F)) (Variants.lift Variants.none) (c : Thread nD τ) none) Set.univ (Pipeline.chain [StableHlo.seq hostOps1]) Q' := by
  rw [Pipeline.unscopedRestP_none, Pipeline.unscopedRestP_none, unscopedRest0_eq, unscopedRest0_eq, arrays_eq4, tail_chain_eq]
  iintro ⟨Hk, Hb, ⟨Ha0, Ha1, Ha2, Ha3⟩, Hc, Hv1, Hc0, Hv2⟩
  ihave Hh : (StableHlo.held (c : Thread nD τ) (tailL : List (DevRef τ sig)).toFinset (tailV m c ((dats m 0 c).arrAt 3 cfg0.N)) : sProp 𝕄) $$ [Ha3 Hc Hv1 Hc0 Hv2]
  · rw [held_tail, tailV_v0, tailV_ne m c _ main_cst (by decide), tailV_ne m c _ main_v1 (by decide), tailV_ne m c _ main_cst_0 (by decide), tailV_ne m c _ main_v2 (by decide)]
    isplitl [Ha3]; · iexact Ha3
    isplitl [Hc]; · iexact Hc
    isplitl [Hv1]; · iexact Hv1
    isplitl [Hc0]; · iexact Hc0
    iexact Hv2
  iapply (Pipeline.wp_seqs_then (pcfgs (F := F)) defs₀ Variants.none c (tailL : List (DevRef τ sig)).toFinset [] [hostOps1]
    (fun ops ho op h => by rw [List.mem_singleton.mp ho] at h; exact hostOps1_tail op h)
    (fun ops ho op h => by rw [List.mem_singleton.mp ho] at h; exact (List.forall_iff_forall_mem.mp hostOps1_fresh) op h)
    (tailV m c ((dats m 0 c).arrAt 3 cfg0.N))) $$ [Hb Hh]
  · isplitl [Hb]; · iexact Hb
    iexact Hh
  iintro ⟨Hb, Hh⟩
  rw [Pipeline.chain_nil, wp_pure]
  ihave Hh2 := (Entails.of_eq (held_tail_after m c ((dats m 0 c).arrAt 3 cfg0.N))) $$ Hh
  icases Hh2 with ⟨Ha3, Hc, Hv1, Hc0, Hv2⟩
  imodintro
  iapply Hk
  isplitl [Ha0 Ha1 Ha2 Ha3]
  · isplitl [Ha0]; · iexact Ha0
    isplitl [Ha1]; · iexact Ha1
    isplitl [Ha2]; · iexact Ha2
    iexact Ha3
  isplitl [Hc]; · iexact Hc
  isplitl [Hv1]; · iexact Hv1
  isplitl [Hc0]; · iexact Hc0
  iexact Hv2

/-! ## The run -/

/-- What every final state holds: the result at the quotient of the summed output cells, both arguments as launched. -/
def QC : PUnit × MemSt nD τ sig (Elt F) → Prop := fun r => ∀ c : Dev nD,
  r.2.mem ((c : Thread nD τ).loc main_v2)
      = Host.divf (Host.reduceAdd ((dats m 0 c).arrAt 3 cfg0.N) (constant S_ .f32 0x00000000#32) reducesTo_S8x1x1_S_d0_1_2 h_S_) (constant S_ .f32 0x46800000#32)
    ∧ r.2.mem ((c : Thread nD τ).loc main_arg0) = m ((c : Thread nD τ).loc main_arg0)
    ∧ r.2.mem ((c : Thread nD τ).loc main_arg1) = m ((c : Thread nD τ).loc main_arg1)

set_option backward.isDefEq.respectTransparency.types false in
/-- At the compiled mesh, for any float values, from any memory with zero counters: every weakly fair execution of
    @main terminates, nothing faulting, in a state satisfying `QC`. -/
theorem run_main : θ_run defs (onTc (τ := τ) (main (F := F))) ⟨m, fun _ => 0, ρ⟩ (QC m) :=
  Pipeline.θ_run_region_pf_tail (pcfgs (F := F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m) (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => tailAfter m c ((dats m 0 c).arrAt 3 cfg0.N) (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := fun c s => s.mem ((c : Thread nD τ).loc main_v2) = tailAfter m c ((dats m 0 c).arrAt 3 cfg0.N) (Proc.devRef .tc main_v2))
    (hY := fun c s' => by
      rw [Pipeline.unscopedRestP_none, unscopedRest0_eq]
      iintro ⟨-, ⟨-, -, -, H2⟩, HSI⟩
      icombine HSI H2 gives %h
      imodintro
      isplitr; · ipureintro; exact Buf.eq_of_forall_mem_univ h
      iexact HSI)
    (hQ := fun s h c => ⟨((h c).2.2).trans (tailAfter_v2 m c _),
      ((h c).1 0).trans (((dats m 0 c).arrAt_in 0 rfl _).trans ((A_eq m c 0).trans (V_eq m c main_arg0))),
      ((h c).1 1).trans (((dats m 0 c).arrAt_in 1 rfl _).trans ((A_eq m c 1).trans (V_eq m c main_arg1)))⟩)

/-- info: 'Cert.Kernel.Hand.run_main' depends on axioms: [propext, Classical.choice, Quot.sound] -/
#guard_msgs in #print axioms run_main

/-- THE FRAME: the program runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.Hand

end
-- ==== Proof.KIRuns.lean ====
/-
  The tiled smoothness kernel, read at any float instance: what its frame proof is stated over.

  The grid has 8 · 2 · 2 = 32 points; point t is graph b = t / 4, row tile i = (t % 4) / 2, column tile j = t % 2.
  The body resets the one-cell accumulator at the first tile of a graph (t % 4 = 0), adds the tile's weighted sum
  to it at every point, and copies it to the graph's output cell at the last tile (t % 4 = 3). Between those
  points the output window's staging cell is left as it was found and is not written back.
  Here: the arrays as the region finds them, each window's block read off its array, the two branch conditions
  decided over the 32 points, where the output window is idle, and names for the staging buffers.
-/
import proofs.«135550_j86766929314299_2_alg».proof.Proof.Gen.KernelIdeal.Launch
import proofs.«135550_j86766929314299_2_alg».proof.Proof.Gen.KernelIdeal.Skeleton
import proofs.«135550_j86766929314299_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffer contents when the region is entered: nothing runs before it, so the launch contents. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem V_eq (c : Dev nD) (b : Ref sig .tc) : V m c b = m ((c : Thread nD τ).loc b) := rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two branches, decided over the grid -/

/-- The accumulator is reset: row tile 0 and column tile 0. -/
abbrev cond0_0 (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- That is the first of a graph's four points. -/
theorem hcond0_0 : ∀ t : Fin cfg0.N, cond0_0 (grid0.coords t) ↔ t.val % 4 = 0 :=
  (by decide +kernel : ∀ t : Fin grid0.N, cond0_0 (grid0.coords t) ↔ t.val % 4 = 0)

/-- The accumulator is copied out: row tile 1 and column tile 1. -/
abbrev cond0_1 (i : grid0.Coords) : Prop := k0_cond2 i = 1#1
/-- That is the last of a graph's four points. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from a graph's last point nothing is stored into the output cell, -/
theorem idleAt0_3 : ∀ t : Fin cfg0.N, ¬cond0_1 (grid0.coords t) → cfg0.idle 3 (grid0.coords t) = true := by decide +kernel
/-- and it is not written back there; -/
theorem noFlush0_3 : ∀ t : Fin cfg0.N, ¬cond0_1 (grid0.coords t) → (cfg0.win 3).flush t = false := by decide +kernel
/-- at the last point it is stored. -/
theorem liveAt0_3 : ∀ t : Fin cfg0.N, cond0_1 (grid0.coords t) → cfg0.idle 3 (grid0.coords t) = false := by decide +kernel

/-! ## The staging buffers by name -/

abbrev VO0_3 : View sig .tc .vmem S1x1x1 .f32 := (Memref.whole cc0_stg3_0 : Memref sig .tc .vmem S1x1x1 .f32).view
abbrev ms0_0 (t : Fin cfg0.N) : Memref sig .tc .vmem S1x1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1 .f32 := win0_3.stage (cfg0.slots t 3)
abbrev hs0_3 (t : Fin cfg0.N) : (ms0_3 t).IsWhole := hstage0_3 ((cfg0.slots t 3).cast nbuf0_3)
/-- The accumulator cell: a whole scoped buffer of the kernel's own, -/
abbrev scM0_0 : Memref sig .tc .vmem S1x1 .f32 := Memref.whole cc0_scratch0
/-- and as a view, through which what it holds is stated. -/
abbrev VS0_0 : View sig .tc .vmem S1x1 .f32 := scM0_0.view

/-- The scoped rest of the region is the accumulator cell at some contents, beside the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KIRunA.lean ====
/-
  The body at a graph's FIRST tile (the accumulator is reset, nothing is copied out): on whole staging buffers
  holding the three input blocks, the output cell at any contents handed back untouched, and the accumulator at
  anything, it runs to the end leaving the inputs as they were and the accumulator written by two stores — the
  reset, then the reset value plus the tile's weighted sum. The list of stored pieces is found by the run.
-/
import proofs.«135550_j86766929314299_2_alg».proof.Proof.KIRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1x1 .f32) (harg6 : arg6.IsWhole) (arg7 : Memref sig .tc .vmem S1x1 .f32) (harg7 : arg7.IsWhole) (hc0 : cond0_0 i) (hc1 : ¬cond0_1 i)
    (x0 : Vec F S1x1024x1024 .f32) (x1 : Vec F S1x1024x128 .f32) (x2 : Vec F S1x1024x128 .f32) :
    { LS0 : List (View.Piece (Elt F) S1x1 .f32) //
      ∀ (xi3 : Vec F S1x1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__smoothness_kernel i arg3 harg3 arg4 harg4 arg5 harg5 arg6 harg6 arg7 harg7) K } := by
  refine ⟨?_, fun xi3 E K => ?run⟩
  case run =>
    simp only [cc0__smoothness_kernel_eq_skeleton]; unfold cc0__smoothness_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KIRunB.lean ====
/-
  The body at a graph's MIDDLE tiles (no reset, nothing copied out): the accumulator holds what the tile before
  left; the body adds the tile's weighted sum to it with one store, and hands the output cell back untouched.
-/
import proofs.«135550_j86766929314299_2_alg».proof.Proof.KIRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (hc1 : ¬cond0_1 i)
    (x0 : Vec F S1x1024x1024 .f32) (x1 : Vec F S1x1024x128 .f32) (x2 : Vec F S1x1024x128 .f32) (xs0 : Vec F S1x1 .f32) :
    { LS0 : List (View.Piece (Elt F) S1x1 .f32) //
      ∀ (xi3 : Vec F S1x1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__smoothness_kernel i arg3 harg3 arg4 harg4 arg5 harg5 arg6 harg6 arg7 harg7) K } := by
  refine ⟨?_, fun xi3 E K => ?run⟩
  case run =>
    simp only [cc0__smoothness_kernel_eq_skeleton]; unfold cc0__smoothness_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KIRunC.lean ====
/-
  The body at a graph's LAST tile (no reset; the accumulator is copied out): the accumulator holds what the tile
  before left; the body adds the tile's weighted sum to it with one store, reads it back and stores it into the
  output cell with one store.
-/
import proofs.«135550_j86766929314299_2_alg».proof.Proof.KIRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_C (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (hc1 : cond0_1 i)
    (x0 : Vec F S1x1024x1024 .f32) (x1 : Vec F S1x1024x128 .f32) (x2 : Vec F S1x1024x128 .f32) (xs0 : Vec F S1x1 .f32) :
    Σ' (L3 : List (View.Piece (Elt F) S1x1x1 .f32)), { LS0 : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__smoothness_kernel i arg3 harg3 arg4 harg4 arg5 harg5 arg6 harg6 arg7 harg7) K } := by
  refine ⟨?_, ?_, fun E K => ?run⟩
  case run =>
    simp only [cc0__smoothness_kernel_eq_skeleton]; unfold cc0__smoothness_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.KIFrame.lean ====
/-
  The frame of the tiled smoothness kernel, at any float instance: what the accumulator cell and the output cell
  hold after each of the 32 points, the proof data of the one pipeline, and the body's obligation at every point.

  After a graph's first tile the accumulator holds what the reset-and-add leaves; after each later tile, what
  the add leaves over the tile before; at the graph's last tile the output cell takes what the copy leaves. The
  two windows that read the embeddings hold that array at complementary half shares; the weights and the output
  are held whole.
-/
import proofs.«135550_j86766929314299_2_alg».proof.Proof.KIRunA
import proofs.«135550_j86766929314299_2_alg».proof.Proof.KIRunB
import proofs.«135550_j86766929314299_2_alg».proof.Proof.KIRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, read back from its stores -/

/-- The first tile's two stores cover the accumulator cell. -/
theorem scover0_A_0 (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1x1 .f32) (harg6 : arg6.IsWhole) (arg7 : Memref sig .tc .vmem S1x1 .f32) (harg7 : arg7.IsWhole) (hc0 : cond0_0 i) (hc1 : ¬cond0_1 i) (x0 : Vec F S1x1024x1024 .f32) (x1 : Vec F S1x1024x128 .f32) (x2 : Vec F S1x1024x128 .f32) (y : S1x1.Idx) :
    ∃ pc ∈ (kernelRun0_A c i arg3 harg3 arg4 harg4 arg5 harg5 arg6 harg6 arg7 harg7 hc0 hc1 x0 x1 x2).1, y ∈ pc.1.set :=
  View.cover_of_tiledL (kernelRun0_A c i arg3 harg3 arg4 harg4 arg5 harg5 arg6 harg6 arg7 harg7 hc0 hc1 x0 x1 x2).1 S1x1.size (by sl_kernel_rfl) y

/-- What the first tile leaves in the accumulator. -/
def sout0_A_0 (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1x1 .f32) (harg6 : arg6.IsWhole) (arg7 : Memref sig .tc .vmem S1x1 .f32) (harg7 : arg7.IsWhole) (hc0 : cond0_0 i) (hc1 : ¬cond0_1 i) (x0 : Vec F S1x1024x1024 .f32) (x1 : Vec F S1x1024x128 .f32) (x2 : Vec F S1x1024x128 .f32) : Vec F S1x1 .f32 :=
  VS0_0.read (Elt F) (VS0_0.writes (Elt F) VS0_0.junk (kernelRun0_A c i arg3 harg3 arg4 harg4 arg5 harg5 arg6 harg6 arg7 harg7 hc0 hc1 x0 x1 x2).1)

/-- A middle tile's store covers the accumulator cell. -/
theorem scover0_B_0 (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (hc1 : ¬cond0_1 i) (x0 : Vec F S1x1024x1024 .f32) (x1 : Vec F S1x1024x128 .f32) (x2 : Vec F S1x1024x128 .f32) (xs0 : Vec F S1x1 .f32) (y : S1x1.Idx) :
    ∃ pc ∈ (kernelRun0_B c i arg3 harg3 arg4 harg4 arg5 harg5 arg6 harg6 arg7 harg7 hc0 hc1 x0 x1 x2 xs0).1, y ∈ pc.1.set :=
  View.cover_of_tiledL (kernelRun0_B c i arg3 harg3 arg4 harg4 arg5 harg5 arg6 harg6 arg7 harg7 hc0 hc1 x0 x1 x2 xs0).1 S1x1.size (by sl_kernel_rfl) y

/-- What a middle tile leaves in the accumulator, over what it found there. -/
def sout0_B_0 (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (hc1 : ¬cond0_1 i) (x0 : Vec F S1x1024x1024 .f32) (x1 : Vec F S1x1024x128 .f32) (x2 : Vec F S1x1024x128 .f32) (xs0 : Vec F S1x1 .f32) : Vec F S1x1 .f32 :=
  VS0_0.read (Elt F) (VS0_0.writes (Elt F) VS0_0.junk (kernelRun0_B c i arg3 harg3 arg4 harg4 arg5 harg5 arg6 harg6 arg7 harg7 hc0 hc1 x0 x1 x2 xs0).1)

/-- The last tile's store covers the output cell, -/
theorem cover0_C_3 (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (hc1 : cond0_1 i) (x0 : Vec F S1x1024x1024 .f32) (x1 : Vec F S1x1024x128 .f32) (x2 : Vec F S1x1024x128 .f32) (xs0 : Vec F S1x1 .f32) (y : S1x1x1.Idx) :
    ∃ pc ∈ (kernelRun0_C c i arg3 harg3 arg4 harg4 arg5 harg5 arg6 harg6 arg7 harg7 hc0 hc1 x0 x1 x2 xs0).1, y ∈ pc.1.set :=
  View.cover_of_tiledL (kernelRun0_C c i arg3 harg3 arg4 harg4 arg5 harg5 arg6 harg6 arg7 harg7 hc0 hc1 x0 x1 x2 xs0).1 S1x1x1.size (by sl_kernel_rfl) y

/-- which then holds this; -/
def out0_C_3 (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (hc1 : cond0_1 i) (x0 : Vec F S1x1024x1024 .f32) (x1 : Vec F S1x1024x128 .f32) (x2 : Vec F S1x1024x128 .f32) (xs0 : Vec F S1x1 .f32) : Vec F S1x1x1 .f32 :=
  VO0_3.read (Elt F) (VO0_3.writes (Elt F) VO0_3.junk (kernelRun0_C c i arg3 harg3 arg4 harg4 arg5 harg5 arg6 harg6 arg7 harg7 hc0 hc1 x0 x1 x2 xs0).1)

/-- its store into the accumulator covers that cell, -/
theorem scover0_C_0 (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (hc1 : cond0_1 i) (x0 : Vec F S1x1024x1024 .f32) (x1 : Vec F S1x1024x128 .f32) (x2 : Vec F S1x1024x128 .f32) (xs0 : Vec F S1x1 .f32) (y : S1x1.Idx) :
    ∃ pc ∈ (kernelRun0_C c i arg3 harg3 arg4 harg4 arg5 harg5 arg6 harg6 arg7 harg7 hc0 hc1 x0 x1 x2 xs0).2.1, y ∈ pc.1.set :=
  View.cover_of_tiledL (kernelRun0_C c i arg3 harg3 arg4 harg4 arg5 harg5 arg6 harg6 arg7 harg7 hc0 hc1 x0 x1 x2 xs0).2.1 S1x1.size (by sl_kernel_rfl) y

/-- which then holds this. -/
def sout0_C_0 (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (hc1 : cond0_1 i) (x0 : Vec F S1x1024x1024 .f32) (x1 : Vec F S1x1024x128 .f32) (x2 : Vec F S1x1024x128 .f32) (xs0 : Vec F S1x1 .f32) : Vec F S1x1 .f32 :=
  VS0_0.read (Elt F) (VS0_0.writes (Elt F) VS0_0.junk (kernelRun0_C c i arg3 harg3 arg4 harg4 arg5 harg5 arg6 harg6 arg7 harg7 hc0 hc1 x0 x1 x2 xs0).2.1)

/-- At a point that stores nothing into the output cell: contents nothing consults (the cell is neither written
    back there nor read at the next point). -/
def idleOut : Vec F S1x1x1 .f32 := VO0_3.read (Elt F) VO0_3.junk

/-! ## Point by point -/

/-- THE ACCUMULATION: what the output cell's staging buffer and the accumulator hold after the body at position `n`. -/
def outsAt0 (c : Dev nD) : (n : ℕ) → n < cfg0.N → Vec F S1x1x1 .f32 × Vec F S1x1 .f32
  | 0, hn => (idleOut, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 4 = 0 then
      if h1 : (n + 1) % 4 = 3 then
        False.elim (by omega)
      else
        (idleOut, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 4 = 3 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2)
      else
        (idleOut, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2)

theorem outsAt0_A (c : Dev nD) (t : Fin cfg0.N) (h0 : t.val % 4 = 0) (h1 : ¬t.val % 4 = 3) :
    outsAt0 m c t.val t.isLt = (idleOut, sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (idleOut, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2,
      sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator at anything; afterwards at
    what the point before left; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data on core `c`: the arrays as the region finds them; after the body each input's buffer at its
    block and the output's at `outsAt0`; the invariant `PhiS`; the weights and the output held whole, the
    embeddings at the left half share by the row window and at the right half share by the column window;
    nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

/-- Each input's current staging buffer holds its block at every point, fetched there or not (between two fetches the
    window's block index has not moved, and the body leaves the block in place). -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point. The inputs' buffers hold their blocks; `t % 4` says which case the point is in; the
    invariant hands the body the accumulator at what the point before left (at anything at the very first point)
    and takes it back at this point's contents; away from a graph's last tile the output cell goes back as found;
    the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val % 4 = 0
  · by_cases h1 : t.val % 4 = 3
    · exfalso; omega
    · rw [Dat.leavesExact_idle (dats m 0 c) 3 t (idleAt0_3 t (fun h => h1 ((hcond0_1 t).mp h))) (noFlush0_3 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk m c 0 t) (iblk m c 1 t) (iblk m c 2 t)).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk m c 0 t) (iblk m c 1 t) (iblk m c 2 t)).2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 4 = 3
    · rw [show (dats m 0 c).leavesExact 3 t = owns (c : Thread nD τ) (ms0_3 t) fullShare ((dats m 0 c).after 3 t) from by
        unfold Dat.leavesExact; rw [liveAt0_3 t ((hcond0_1 t).mpr h1)], after0_3]
      rw [outsAt0_C m c t h0 h1]
      unfold out0_C_3 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk m c 0 t) (iblk m c 1 t) (iblk m c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _)
    · rw [Dat.leavesExact_idle (dats m 0 c) 3 t (idleAt0_3 t (fun h => h1 ((hcond0_1 t).mp h))) (noFlush0_3 t (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk m c 0 t) (iblk m c 1 t) (iblk m c 2 t) _).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the scoped rest back: the accumulator's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

end Cert.KernelIdeal.Hand

end
-- ==== Proof.KILaunch.lean ====
/-
  The launch of the tiled smoothness kernel, at any float instance: @main is the kernel region followed by four
  host lines (a zero, the sum of the eight output cells, the constant 16384, the quotient). Two of the region's
  windows read the SAME array (the embeddings, once by row tile and once by column tile), so at the region's entry
  that array's buffer is split into two half shares, one per window, and rejoined by nothing: both halves stay
  with the pipeline to the end, where the array is read back unchanged. The host lines run over the output array
  and their own four result buffers only.
-/
import proofs.«135550_j86766929314299_2_alg».proof.Proof.KIFrame
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps1_fresh : (hostOps1 : List (HloOp τ sig (Elt F))).Forall fun op => op.fresh = ∅ := by
  simp only [List.Forall]; repeat' constructor

/-- @main reduces to the region continued by the four host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-! ## The arrays at the region's entry -/

theorem share0_0 (c : Dev nD) : (dats m 0 c).share 0 = fullShare := rfl
theorem share0_1 (c : Dev nD) : (dats m 0 c).share 1 = fullShare.left := rfl
theorem share0_2 (c : Dev nD) : (dats m 0 c).share 2 = fullShare.right := rfl
theorem share0_3 (c : Dev nD) : (dats m 0 c).share 3 = fullShare := rfl

/-- The windows' arrays at contents `G`, one by one: the weights whole, the embeddings at the two half shares,
    the output whole. -/
theorem arrays_eq4 (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare} G 0) ∗ (((c : Thread nD τ).loc main_arg1) ↦{fullShare.left} G 1)
          ∗ (((c : Thread nD τ).loc main_arg1) ↦{fullShare.right} G 2) ∗ (((c : Thread nD τ).loc main_v0) ↦{fullShare} G 3)) := by
  unfold Dat.arrays
  rw [bigSep_W0, (arr_whole0 0).set_eq_univ, (arr_whole0 1).set_eq_univ, (arr_whole0 3).set_eq_univ,
    share0_0, share0_1, share0_2, share0_3]

/-- The three distinct buffers behind the four windows, one by one. -/
theorem arrBufs_eq3 (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
          ∗ (((c : Thread nD τ).loc main_v0) ↦{fullShare} W main_v0)) := by
  unfold Pipeline.arrBufs
  rw [bigSep_eq_bigSepL_of_eq [main_arg0, main_arg1, main_v0] (by decide) (by decide)]
  rfl

/-- A whole buffer held at the full share is its two halves. -/
theorem split_halves (c : Dev nD) (b : Ref sig .tc) (f : Buf (Elt F) ((c : Thread nD τ).loc b)) :
    ((((c : Thread nD τ).loc b) ↦{fullShare} f) : sProp 𝕄)
      ⊢ iprop((((c : Thread nD τ).loc b) ↦{fullShare.left} f) ∗ (((c : Thread nD τ).loc b) ↦{fullShare.right} f)) :=
  (pointsTo_share (PosShare.mem_left_op_right fullShare)).1

/-- ENTRY: the embeddings' buffer is split into its two halves, one for each window that reads it. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq3, arrays_eq4]
  iintro ⟨H0, H1, H3⟩
  ihave Hs := (split_halves c main_arg1 _) $$ H1
  icases Hs with ⟨H1l, H1r⟩
  isplitl [H0]; · iexact H0
  isplitl [H1l]; · iexact H1l
  isplitl [H1r]; · iexact H1r
  iexact H3

/-! ## The four host lines after the region -/

/-- The five buffers they touch: the output array they read, and their own four results. -/
def tailL : List (DevRef τ sig) :=
  [Proc.devRef .tc main_v0, Proc.devRef .tc main_cst, Proc.devRef .tc main_v1, Proc.devRef .tc main_cst_0, Proc.devRef .tc main_v2]

theorem tailL_nodup : (tailL : List (DevRef τ sig)).Nodup := by decide

theorem hostOps1_tail : ∀ op ∈ (hostOps1 : List (HloOp τ sig (Elt F))), op.bufs ⊆ (tailL : List (DevRef τ sig)).toFinset := by
  intro op hop
  simp only [hostOps1, List.mem_cons, List.mem_nil_iff, or_false] at hop
  rcases hop with rfl | rfl | rfl | rfl
  · rw [StableHlo.nullary_bufs]; decide
  · rw [StableHlo.binary_bufs]; decide
  · rw [StableHlo.nullary_bufs]; decide
  · rw [StableHlo.binary_bufs]; decide

/-- The buffer contents the host lines start from: the output array as the region left it (`X`), every other
    buffer as the region found it. -/
def tailV (c : Dev nD) (X : Buf (Elt F) ((c : Thread nD τ).loc main_v0)) : Valuation τ sig (Elt F) :=
  Function.update (V0 m c) (Proc.devRef .tc main_v0) X

theorem tailV_v0 (c : Dev nD) (X : Buf (Elt F) ((c : Thread nD τ).loc main_v0)) : tailV m c X (Proc.devRef .tc main_v0) = X :=
  Function.update_self _ _ _

theorem tailV_ne (c : Dev nD) (X : Buf (Elt F) ((c : Thread nD τ).loc main_v0)) (b : Ref sig .tc) (h : b ≠ main_v0) :
    tailV m c X (Proc.devRef .tc b) = V m c b :=
  Function.update_of_ne (StableHlo.devRef_ne_of_ne h) _ _

/-- The five buffers held at a valuation, one by one. -/
theorem held_tail (c : Dev nD) (W : Valuation τ sig (Elt F)) :
    (StableHlo.held (c : Thread nD τ) (tailL : List (DevRef τ sig)).toFinset W : sProp 𝕄)
      = iprop((((c : Thread nD τ).loc main_v0) ↦{fullShare} W (Proc.devRef .tc main_v0)) ∗ (((c : Thread nD τ).loc main_cst) ↦{fullShare} W (Proc.devRef .tc main_cst))
          ∗ (((c : Thread nD τ).loc main_v1) ↦{fullShare} W (Proc.devRef .tc main_v1)) ∗ (((c : Thread nD τ).loc main_cst_0) ↦{fullShare} W (Proc.devRef .tc main_cst_0))
          ∗ (((c : Thread nD τ).loc main_v2) ↦{fullShare} W (Proc.devRef .tc main_v2))) := by
  unfold StableHlo.held
  rw [bigSep_eq_bigSepL tailL tailL_nodup]
  rfl

/-- What the buffers hold after the four lines, from the output array at `X`. -/
def tailAfter (c : Dev nD) (X : Buf (Elt F) ((c : Thread nD τ).loc main_v0)) : Valuation τ sig (Elt F) :=
  StableHlo.after (List.flatten [hostOps1]) (tailV m c X)

/-- The lines do not write the output array. -/
theorem tailAfter_v0 (c : Dev nD) (X : Buf (Elt F) ((c : Thread nD τ).loc main_v0)) : tailAfter m c X (Proc.devRef .tc main_v0) = X := by
  unfold tailAfter
  rw [StableHlo.after_of_forall_not_mem _ _ ?_, tailV_v0]
  intro op hop
  simp only [List.flatten_cons, List.flatten_nil, List.append_nil, hostOps1, List.mem_cons, List.mem_nil_iff, or_false] at hop
  rcases hop with rfl | rfl | rfl | rfl <;>
    simp only [StableHlo.nullary_writes, StableHlo.binary_writes, Finset.mem_singleton] <;>
    exact StableHlo.devRef_ne_of_ne (by decide)

/-- The quotient they compute: the sum of the output array's cells from a zero, divided by 16384. -/
theorem tailAfter_v2 (c : Dev nD) (X : Buf (Elt F) ((c : Thread nD τ).loc main_v0)) :
    tailAfter m c X (Proc.devRef .tc main_v2)
      = Host.divf (Host.reduceAdd X (constant S_ .f32 0x00000000#32) reducesTo_S8x1x1_S_d0_1_2 h_S_) (constant S_ .f32 0x46800000#32) := by
  unfold tailAfter
  show StableHlo.after hostOps1 _ (Proc.devRef .tc main_v2) = _
  after_results
  rw [tailV_v0]

/-- The five buffers after the lines, one by one: the output array as it was, the four results as computed. -/
theorem held_tail_after (c : Dev nD) (X : Buf (Elt F) ((c : Thread nD τ).loc main_v0)) :
    (StableHlo.held (c : Thread nD τ) (tailL : List (DevRef τ sig)).toFinset (StableHlo.after (List.flatten [hostOps1]) (tailV m c X)) : sProp 𝕄)
      = iprop((((c : Thread nD τ).loc main_v0) ↦{fullShare} X) ∗ (((c : Thread nD τ).loc main_cst) ↦{fullShare} tailAfter m c X (Proc.devRef .tc main_cst))
          ∗ (((c : Thread nD τ).loc main_v1) ↦{fullShare} tailAfter m c X (Proc.devRef .tc main_v1)) ∗ (((c : Thread nD τ).loc main_cst_0) ↦{fullShare} tailAfter m c X (Proc.devRef .tc main_cst_0))
          ∗ (((c : Thread nD τ).loc main_v2) ↦{fullShare} tailAfter m c X (Proc.devRef .tc main_v2))) := by
  rw [held_tail, show StableHlo.after (List.flatten [hostOps1]) (tailV m c X) (Proc.devRef .tc main_v0) = X from tailAfter_v0 m c X]
  rfl

theorem tail_chain_eq : (Pipeline.chain [StableHlo.seq (hostOps1 : List (HloOp τ sig (Elt F)))] : Prog (TpuEff nD τ sig (Elt F) (Pipeline.Sig Λ₀ (Fin 1) fun p => (pcfgs (F := F) p).Adm) .tc) PUnit)
    = Pipeline.chain ([hostOps1].map StableHlo.seq ++ []) := rfl

set_option backward.isDefEq.respectTransparency.types false in
/-- THE LINES AFTER THE REGION: from the region's exit — the arrays at their final contents, the four result buffers as
    the region found them — the lines run over the output array and those four buffers, and hand the arrays back as
    they were and the four buffers at what the lines computed. -/
theorem htail (c : Dev nD) (Q' : PUnit → sProp 𝕄) :
    iprop((iprop((dats m 0 c).arrays ((dats m 0 c).arrAt · cfg0.N)
              ∗ Pipeline.unscopedRestP (Ix := Unit) (Name := ℕ) (U := UR sig nD τ) (Lvl := ℕ) Pipeline.Prefetch.none spec0 c (fun b => tailAfter m c ((dats m 0 c).arrAt 3 cfg0.N) (Proc.devRef .tc b))) -∗ Q' ⟨⟩)
        ∗ boundary (c : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (defs (F := F)) (Variants.lift Variants.none) (c : Thread nD τ) none) Set.univ (Pipeline.chain [StableHlo.seq hostOps1]) Q' := by
  rw [Pipeline.unscopedRestP_none, Pipeline.unscopedRestP_none, unscopedRest0_eq, unscopedRest0_eq, arrays_eq4, tail_chain_eq]
  iintro ⟨Hk, Hb, ⟨Ha0, Ha1, Ha2, Ha3⟩, Hc, Hv1, Hc0, Hv2⟩
  ihave Hh : (StableHlo.held (c : Thread nD τ) (tailL : List (DevRef τ sig)).toFinset (tailV m c ((dats m 0 c).arrAt 3 cfg0.N)) : sProp 𝕄) $$ [Ha3 Hc Hv1 Hc0 Hv2]
  · rw [held_tail, tailV_v0, tailV_ne m c _ main_cst (by decide), tailV_ne m c _ main_v1 (by decide), tailV_ne m c _ main_cst_0 (by decide), tailV_ne m c _ main_v2 (by decide)]
    isplitl [Ha3]; · iexact Ha3
    isplitl [Hc]; · iexact Hc
    isplitl [Hv1]; · iexact Hv1
    isplitl [Hc0]; · iexact Hc0
    iexact Hv2
  iapply (Pipeline.wp_seqs_then (pcfgs (F := F)) defs₀ Variants.none c (tailL : List (DevRef τ sig)).toFinset [] [hostOps1]
    (fun ops ho op h => by rw [List.mem_singleton.mp ho] at h; exact hostOps1_tail op h)
    (fun ops ho op h => by rw [List.mem_singleton.mp ho] at h; exact (List.forall_iff_forall_mem.mp hostOps1_fresh) op h)
    (tailV m c ((dats m 0 c).arrAt 3 cfg0.N))) $$ [Hb Hh]
  · isplitl [Hb]; · iexact Hb
    iexact Hh
  iintro ⟨Hb, Hh⟩
  rw [Pipeline.chain_nil, wp_pure]
  ihave Hh2 := (Entails.of_eq (held_tail_after m c ((dats m 0 c).arrAt 3 cfg0.N))) $$ Hh
  icases Hh2 with ⟨Ha3, Hc, Hv1, Hc0, Hv2⟩
  imodintro
  iapply Hk
  isplitl [Ha0 Ha1 Ha2 Ha3]
  · isplitl [Ha0]; · iexact Ha0
    isplitl [Ha1]; · iexact Ha1
    isplitl [Ha2]; · iexact Ha2
    iexact Ha3
  isplitl [Hc]; · iexact Hc
  isplitl [Hv1]; · iexact Hv1
  isplitl [Hc0]; · iexact Hc0
  iexact Hv2

/-! ## The run -/

/-- What every final state holds: the result at the quotient of the summed output cells, both arguments as launched. -/
def QC : PUnit × MemSt nD τ sig (Elt F) → Prop := fun r => ∀ c : Dev nD,
  r.2.mem ((c : Thread nD τ).loc main_v2)
      = Host.divf (Host.reduceAdd ((dats m 0 c).arrAt 3 cfg0.N) (constant S_ .f32 0x00000000#32) reducesTo_S8x1x1_S_d0_1_2 h_S_) (constant S_ .f32 0x46800000#32)
    ∧ r.2.mem ((c : Thread nD τ).loc main_arg0) = m ((c : Thread nD τ).loc main_arg0)
    ∧ r.2.mem ((c : Thread nD τ).loc main_arg1) = m ((c : Thread nD τ).loc main_arg1)

set_option backward.isDefEq.respectTransparency.types false in
/-- At the compiled mesh, for any float values, from any memory with zero counters: every weakly fair execution of
    @main terminates, nothing faulting, in a state satisfying `QC`. -/
theorem run_main : θ_run defs (onTc (τ := τ) (main (F := F))) ⟨m, fun _ => 0, ρ⟩ (QC m) :=
  Pipeline.θ_run_region_pf_tail (pcfgs (F := F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m) (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => tailAfter m c ((dats m 0 c).arrAt 3 cfg0.N) (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := fun c s => s.mem ((c : Thread nD τ).loc main_v2) = tailAfter m c ((dats m 0 c).arrAt 3 cfg0.N) (Proc.devRef .tc main_v2))
    (hY := fun c s' => by
      rw [Pipeline.unscopedRestP_none, unscopedRest0_eq]
      iintro ⟨-, ⟨-, -, -, H2⟩, HSI⟩
      icombine HSI H2 gives %h
      imodintro
      isplitr; · ipureintro; exact Buf.eq_of_forall_mem_univ h
      iexact HSI)
    (hQ := fun s h c => ⟨((h c).2.2).trans (tailAfter_v2 m c _),
      ((h c).1 0).trans (((dats m 0 c).arrAt_in 0 rfl _).trans ((A_eq m c 0).trans (V_eq m c main_arg0))),
      ((h c).1 1).trans (((dats m 0 c).arrAt_in 1 rfl _).trans ((A_eq m c 1).trans (V_eq m c main_arg1)))⟩)

/-- info: 'Cert.KernelIdeal.Hand.run_main' depends on axioms: [propext, Classical.choice, Quot.sound] -/
#guard_msgs in #print axioms run_main

/-- THE FRAME: the program runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.Hand

end
-- ==== Proof.Spec.lean ====
/-
  The smoothness loss over eight graphs of 2048 nodes with 128-dimensional embeddings, as extended reals:

      loss(A, E) = ( Σ_b Σ_n Σ_m  A[b,n,m] · max(‖E[b,n]‖² + ‖E[b,m]‖² − 2·⟨E[b,n], E[b,m]⟩, 0) ) / 16384 .

  Two arrangements of the numerator are stated here, index by index over literal extents.
  `totalR` is the sum as written above, over whole rows and columns.
  `totalK` cuts every graph's 2048 × 2048 weight matrix into four 1024 × 1024 tiles, sums each tile, adds the
  four tile sums of a graph and then the eight graphs; inside a tile the inner product carries the factor −2 on its
  left argument, Σ_d (E[b,n,d]·(−2))·E[b,m,d], and is ADDED to the two squared norms.
  That the two agree when every embedding entry is a real number is `Proof/Law.lean`.
-/
import Idealize.ShloMosaic.PureOps.Ideal
import Idealize.ShloMosaic.Lib.ValueIdx

noncomputable section

namespace Cert.Smooth

open Idealize.ShloMosaic Idealize.ShloMosaic.ValueIdx

/-- Edge weights, one 2048 × 2048 matrix per graph. -/
abbrev Adj : Type := (⟨3, ![8, 2048, 2048]⟩ : Shape).Idx → EReal
/-- Node embeddings, 2048 rows of 128 entries per graph. -/
abbrev Emb : Type := (⟨3, ![8, 2048, 128]⟩ : Shape).Idx → EReal

/-- The squared norm of node `n` of graph `b`. -/
def sqn (E : Emb) (b : Fin 8) (n : Fin 2048) : EReal := ∑ d : Fin 128, E (ix3 b n d) * E (ix3 b n d)

/-- The inner product of nodes `n` and `m` of graph `b`. -/
def dotp (E : Emb) (b : Fin 8) (n m : Fin 2048) : EReal := ∑ d : Fin 128, E (ix3 b n d) * E (ix3 b m d)

/-- The clipped squared distance, as the plain formula: ‖n‖² + ‖m‖² − 2⟨n, m⟩, never below zero. -/
def distR (E : Emb) (b : Fin 8) (n m : Fin 2048) : EReal :=
  max ((sqn E b n + sqn E b m) - ((2 : ℝ) : EReal) * dotp E b n m) 0

/-- The same with the factor −2 folded into the inner product's left argument and the product added. -/
def distK (E : Emb) (b : Fin 8) (n m : Fin 2048) : EReal :=
  max ((sqn E b n + sqn E b m) + ∑ d : Fin 128, (E (ix3 b n d) * ((-2 : ℝ) : EReal)) * E (ix3 b m d)) 0

/-- The whole weighted sum, row by row and column by column. -/
def totalR (A : Adj) (E : Emb) : EReal :=
  ∑ b : Fin 8, ∑ n : Fin 2048, ∑ m : Fin 2048, A (ix3 b n m) * distR E b n m

/-- Row (or column) `r` of tile `i`: node 1024·i + r. -/
def node (i : Fin 2) (r : Fin 1024) : Fin 2048 := ⟨1024 * i.val + r.val, by omega⟩

/-- The weighted sum over the 1024 × 1024 tile (i, j) of graph `b`. -/
def tileK (A : Adj) (E : Emb) (b : Fin 8) (i j : Fin 2) : EReal :=
  ∑ r : Fin 1024, ∑ c : Fin 1024, A (ix3 b (node i r) (node j c)) * distK E b (node i r) (node j c)

/-- A graph's four tiles, then the eight graphs. -/
def totalK (A : Adj) (E : Emb) : EReal := ∑ b : Fin 8, ∑ i : Fin 2, ∑ j : Fin 2, tileK A E b i j

end Cert.Smooth

end
-- ==== Proof.Law.lean ====
/-
  The two arrangements of the smoothness loss's numerator agree when every embedding entry is a real number.

  Two facts, both index by index over literal extents.

  * Inside one pair of nodes: with real entries every partial sum is a real number, so the extended-real
    expression  ‖n‖² + ‖m‖² + Σ_d (E[n,d]·(−2))·E[m,d]  is the coercion of a real expression, and in ℝ
    Σ_d (x_d·(−2))·y_d = −(2·Σ_d x_d·y_d): the factor −2 comes out of the inner product and the sum turns into the
    difference.  Off the reals this fails (∞ − ∞), which is why the entries' finiteness is assumed.

  * Across pairs: node 1024·i + r runs over all 2048 nodes exactly once as (i, r) runs over Fin 2 × Fin 1024, so
    the four tile sums of a graph are the whole double sum, regrouped.  This is a statement about sums in a commutative
    monoid and needs nothing of the summand; it is stated for an arbitrary function of two nodes.
-/
import proofs.«135550_j86766929314299_2_alg».proof.Proof.Spec

noncomputable section

namespace Cert.Smooth.Law

open Idealize.ShloMosaic Idealize.ShloMosaic.ValueIdx Cert.Smooth

/-- A finite sum of real numbers, read in the extended reals, is the sum of the readings. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- In ℝ the factor −2 on the left argument of every product comes out of the inner product. -/
theorem real_fold (u v : Fin 128 → ℝ) (p q : ℝ) :
    (p + q) + ∑ d : Fin 128, (u d * (-2 : ℝ)) * v d = (p + q) - (2 : ℝ) * ∑ d : Fin 128, u d * v d := by
  rw [Finset.mul_sum, sub_eq_add_neg, ← Finset.sum_neg_distrib]
  refine congrArg (p + q + ·) (Finset.sum_congr rfl fun d _ => ?_)
  ring

/-- With real entries the clipped squared distance with the factor folded in is the plain one. -/
theorem distK_eq_distR (E : Emb) (hE : ∀ i, ∃ x : ℝ, E i = (x : EReal)) (b : Fin 8) (n m : Fin 2048) :
    distK E b n m = distR E b n m := by
  choose x hx using hE
  unfold distK distR sqn dotp
  simp only [hx, ← EReal.coe_mul, ← coe_sum, ← EReal.coe_add, ← EReal.coe_sub]
  rw [real_fold]

/-- Node 1024·i + r, as (i, r) runs over Fin 2 × Fin 1024, is every node once. -/
def nodeEquiv : Fin 2 × Fin 1024 ≃ Fin 2048 where
  toFun p := node p.1 p.2
  invFun n := (⟨n.val / 1024, by have := n.isLt; omega⟩, ⟨n.val % 1024, Nat.mod_lt _ (by decide)⟩)
  left_inv := by
    rintro ⟨i, r⟩
    have hi := i.isLt
    have hr := r.isLt
    refine Prod.ext (Fin.ext ?_) (Fin.ext ?_)
    · show (1024 * i.val + r.val) / 1024 = i.val
      omega
    · show (1024 * i.val + r.val) % 1024 = r.val
      omega
  right_inv := by
    intro n
    refine Fin.ext ?_
    show 1024 * (n.val / 1024) + n.val % 1024 = n.val
    omega

/-- A sum over all nodes is the sum over the two halves. -/
theorem sum_node {M : Type} [AddCommMonoid M] (g : Fin 2048 → M) :
    ∑ i : Fin 2, ∑ r : Fin 1024, g (node i r) = ∑ n : Fin 2048, g n := by
  rw [← Equiv.sum_comp nodeEquiv g, Fintype.sum_prod_type]
  rfl

/-- The four tile sums of a function of two nodes are its whole double sum. -/
theorem sum_tiles {M : Type} [AddCommMonoid M] (f : Fin 2048 → Fin 2048 → M) :
    ∑ i : Fin 2, ∑ j : Fin 2, ∑ r : Fin 1024, ∑ c : Fin 1024, f (node i r) (node j c)
      = ∑ n : Fin 2048, ∑ m : Fin 2048, f n m := by
  rw [← sum_node fun n => ∑ m : Fin 2048, f n m]
  refine Finset.sum_congr rfl fun i _ => ?_
  rw [Finset.sum_comm]
  refine Finset.sum_congr rfl fun r _ => ?_
  exact sum_node fun m => f (node i r) m

end Cert.Smooth.Law

namespace Cert.Smooth

open Idealize.ShloMosaic Idealize.ShloMosaic.ValueIdx

/-- The tiled arrangement with the factor folded in is the plain one, when every embedding entry is real. -/
theorem totalK_eq_totalR (A : Adj) (E : Emb) (hE : ∀ i, ∃ x : ℝ, E i = (x : EReal)) :
    totalK A E = totalR A E := by
  unfold totalK totalR
  refine Finset.sum_congr rfl fun b _ => ?_
  unfold tileK
  rw [Law.sum_tiles fun n m => A (ix3 b n m) * distK E b n m]
  refine Finset.sum_congr rfl fun n _ => Finset.sum_congr rfl fun m _ => ?_
  rw [Law.distK_eq_distR E hE b n m]

end Cert.Smooth

end
-- ==== Proof.RefValue.lean ====
/-
  The reference's result is the plain arrangement of the loss's numerator, divided by the word of 16384.

  Read from the outside in.  The last operation divides a scalar by a constant word, which is kept as a word.
  The scalar is a sum over all three axes of the weights times the clipped distances, starting from the zero word:
  zero plus the sum over every index of the 8 × 2048 × 2048 array, and a sum over that index set is the triple sum
  over graph, row and column.  At one index (b, n, m) the operand reads as

      A[b,n,m] · max( (0 + Σ_d E[b,n,d]·E[b,n,d]) + (0 + Σ_d E[b,m,d]·E[b,m,d]) − 2 · Σ_d E[b,n,d]·E[b,m,d] , 0 ) :

  the row norms reach the entry through a keepdims column broadcast along the columns, the column norms through the
  same column transposed and broadcast along the rows, and the inner product is the batched contraction of the last
  axes.  The words of 2.0 and 0.0 denote the reals 2 and 0.  Nothing here uses finiteness of any entry.
-/
import proofs.«135550_j86766929314299_2_alg».proof.Proof.Gen.ReferenceIdeal.Read
import proofs.«135550_j86766929314299_2_alg».proof.Proof.Spec

noncomputable section

namespace Cert.Smooth.Ref

open Cert.ReferenceIdeal Cert.ReferenceIdeal.Gen Cert.ReferenceIdeal.Read Idealize.ShloMosaic Idealize.ShloMosaic.ValueIdx
open Cert.Smooth

/-- The argument arrays of the reference are the specification's weight and embedding arrays. -/
example : FVec Ideal S8x2048x2048 .f32 = Adj := rfl
example : FVec Ideal S8x2048x128 .f32 = Emb := rfl

/-- The word of 2.0 denotes the real number 2. -/
theorem ofBits_two : Ideal.ofBits .f32 0x40000000#32 = ((2 : ℝ) : EReal) := by
  simp [Ideal.ofBits, Ideal.ieee, -EReal.coe_mul]; norm_num

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The summand of the last sum at (b, n, m): the weight times the clipped squared distance. -/
theorem summand_at (A : FVec Ideal S8x2048x2048 .f32) (E : FVec Ideal S8x2048x128 .f32) (b : Fin 8) (n m : Fin 2048) :
    val_main_v13 (F := Ideal) A E (ix3 b n m) = A (ix3 b n m) * distR E b n m := by
  have en : ∀ k : Fin 128, idx_main_v1 (idx_main_v2 (idx_main_v5 (ix3 b n m))) k = ix3 b n k := fun k =>
    funext fun a => by match a with | ⟨0, _⟩ => rfl | ⟨1, _⟩ => rfl | ⟨2, _⟩ => rfl
  have em : ∀ k : Fin 128, idx_main_v1 (idx_main_v2 (idx_main_v4 (idx_main_v6 (ix3 b n m)))) k = ix3 b m k := fun k =>
    funext fun a => by match a with | ⟨0, _⟩ => rfl | ⟨1, _⟩ => rfl | ⟨2, _⟩ => rfl
  have el : ∀ k : Fin 128, lidx_main_v3 (ix3 b n m) k = ix3 b n k := fun k =>
    funext fun a => by match a with | ⟨0, _⟩ => rfl | ⟨1, _⟩ => rfl | ⟨2, _⟩ => rfl
  have er : ∀ k : Fin 128, ridx_main_v3 (ix3 b n m) k = ix3 b m k := fun k =>
    funext fun a => by match a with | ⟨0, _⟩ => rfl | ⟨1, _⟩ => rfl | ⟨2, _⟩ => rfl
  rw [val_main_v13_apply, val_main_v12_apply, val_main_v10_apply, val_main_v7_apply, val_main_v5_apply,
    val_main_v2_apply, val_main_v1_apply, val_main_v6_apply, val_main_v4_apply, val_main_v2_apply, val_main_v1_apply,
    val_main_v9_apply, val_main_v8_apply, val_main_cst_0_apply, val_main_v3_apply, val_main_v11_apply,
    val_main_cst_1_apply, val_main_cst_apply]
  simp only [val_main_v0_apply, en, em, el, er, Ideal.mulf_def, Ideal.addf_def, Ideal.subf_def, Ideal.maximumf_def,
    Ideal.ofBits_def, Ideal.ofBits_zero_f32, ofBits_two, zero_add]
  rfl

end Cert.Smooth.Ref

namespace Cert.Smooth

open Cert.ReferenceIdeal Cert.ReferenceIdeal.Gen Cert.ReferenceIdeal.Read Idealize.ShloMosaic Idealize.ShloMosaic.ValueIdx

/-- The reference's result, as composed by its run, is the plain numerator divided by the word of 16384. -/
theorem ref_value (A : FVec Ideal S8x2048x2048 .f32) (E : FVec Ideal S8x2048x128 .f32) :
    Host.divf (F := Ideal) (Host.reduceAdd (F := Ideal) (mulf (A) (maximumf (subf (addf (broadcastInDim S8x2048x2048 ![0, 1, 2] bcast_S8x2048x1_S8x2048x2048_0_1_2 (broadcastInDim S8x2048x1 ![0, 1] bcast_S8x2048_S8x2048x1_0_1 (Host.reduceAdd (F := Ideal) (mulf (E) (E)) (constant (F := Ideal) S_ .f32 0x00000000#32) reducesTo_S8x2048x128_S8x2048_d2 h_S_))) (broadcastInDim S8x2048x2048 ![0, 1, 2] bcast_S8x1x2048_S8x2048x2048_0_1_2 (transpose S8x1x2048 [0, 2, 1] (broadcastInDim S8x2048x1 ![0, 1] bcast_S8x2048_S8x2048x1_0_1 (Host.reduceAdd (F := Ideal) (mulf (E) (E)) (constant (F := Ideal) S_ .f32 0x00000000#32) reducesTo_S8x2048x128_S8x2048_d2 h_S_)) transposes_S8x2048x1_S8x1x2048_0_2_1))) (mulf (broadcastInDim S8x2048x2048 ![] bcast_S_S8x2048x2048 (constant (F := Ideal) S_ .f32 0x40000000#32)) (Host.dotGeneral (F := Ideal) dot_S8x2048x128_S8x2048x128_S8x2048x2048_2_2_1_1_0_0 none (E) (E)))) (broadcastInDim S8x2048x2048 ![] bcast_S_S8x2048x2048 (constant (F := Ideal) S_ .f32 0x00000000#32)))) (constant (F := Ideal) S_ .f32 0x00000000#32) reducesTo_S8x2048x2048_S_d0_1_2 h_S_) (constant (F := Ideal) S_ .f32 0x46800000#32)
      = fun _ => Ideal.div (totalR A E) (Ideal.ofBits .f32 0x46800000#32) := by
  rw [val_main_v15_eq]
  funext i
  rw [val_main_v15_apply, val_main_v14_apply, val_main_cst_3_apply, val_main_cst_2_apply]
  simp only [Ideal.hostDivf_def, Ideal.ofBits_def, Ideal.ofBits_zero_f32, zero_add]
  refine congrArg (Ideal.div · _) ?_
  rw [Ref.sum_idx3]
  unfold totalR
  exact Finset.sum_congr rfl fun b _ => Finset.sum_congr rfl fun n _ => Finset.sum_congr rfl fun m _ =>
    Ref.summand_at A E b n m

end Cert.Smooth

end
-- ==== Proof.Finite.lean ====
/-
  Every embedding entry is a real number.

  The precondition is the conjunction of two "all entries are finite" tests, one per argument array; each test compares
  |x| with +∞, entry by entry, and takes the conjunction of the outcomes over the whole array.  A conjunction that is
  true is true at every entry, so at every index of the embeddings  max(x, −x) < +∞  holds; among the extended reals
  that excludes −∞ (whose negation is +∞) and +∞, and leaves the real numbers.
-/
import proofs.«135550_j86766929314299_2_alg».proof.Defs
import Idealize.ShloMosaic.Lib.ReduceAll

noncomputable section

namespace Cert.Smooth.Finite

open Idealize.ShloMosaic Idealize.SL.Sem Cert.Pre_finite_inputs

/-- The word of +∞ denotes the top element. -/
theorem ofBits_inf : Ideal.ofBits .f32 0x7F800000#32 = (⊤ : EReal) := by
  simp [Ideal.ofBits, Ideal.ieee]

/-- An extended real whose absolute value is below +∞ is a real number. -/
theorem real_of_abs_lt_top (x : EReal) (h : max x (-x) < (⊤ : EReal)) : ∃ r : ℝ, x = (r : EReal) := by
  induction x using EReal.rec with
  | bot => exact absurd h (by simp)
  | coe r => exact ⟨r, rfl⟩
  | top => exact absurd h (by simp)

/-- The scalar shape has one index. -/
instance : Subsingleton S_.Idx := ⟨fun a b => funext fun d => d.elim0⟩

/-- The precondition, over any two argument arrays: if both finiteness tests pass, the second array is real. -/
theorem real_of_fn [Facts] (a0 : FVec Ideal S8x2048x2048 .f32) (a1 : FVec Ideal S8x2048x128 .f32)
    (h : fn (F := Ideal) a0 a1 = fun _ => 1#1) (i : S8x2048x128.Idx) : ∃ r : ℝ, a1 i = (r : EReal) := by
  have h1 := congrFun h (fun a => a.elim0)
  dsimp only [fn] at h1
  have h2 := (IntOp.andi_eq_one.1 h1).2
  have h3 := Host.reduce_andi_all _ _ _ _ _ h2 i
  have h4 : Ideal.cmp .olt (max (a1 i) (-(a1 i))) (Ideal.ofBits .f32 0x7F800000#32) = 1#1 := h3
  rw [ofBits_inf] at h4
  have h5 : BitVec.ofBool (decide (max (a1 i) (-(a1 i)) < (⊤ : EReal))) = 1#1 := h4
  refine real_of_abs_lt_top (a1 i) ?_
  by_contra hn
  rw [decide_eq_false hn] at h5
  exact absurd h5 (by decide)

end Cert.Smooth.Finite

namespace Cert.Smooth

open Idealize.ShloMosaic Idealize.SL.Sem

/-- Under the precondition the embeddings a device starts from are real numbers, entry by entry. -/
theorem emb_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ x : ℝ, m ((c.tc : Thread Cert.KernelIdeal.nD Cert.KernelIdeal.τ).loc Cert.KernelIdeal.main_arg1) i = (x : EReal) :=
  fun i => Finite.real_of_fn _ _ (h c) i

end Cert.Smooth

end
-- ==== Proof.KIValue1.lean ====
/-
  What each of the body's three cases leaves behind, as values of the blocks it read.

  The body always adds the tile's weighted sum to the one-cell accumulator.  At a graph's first tile it first
  resets the cell, so the cell ends at the reset value plus the tile sum; at any later tile the cell ends at what it
  held plus the tile sum; and at the graph's last tile the output cell receives a copy of the accumulator as it
  stands after the add.  Each statement reads the body's stores back: a cell written through its whole extent holds
  the last value stored, and a load that follows a store reads that value.  Nothing here depends on how floats are
  interpreted.
-/
import proofs.«135550_j86766929314299_2_alg».proof.Proof.KIFrame
import Idealize.ShloMosaic.Lib.Pipeline.Value

set_option maxRecDepth 16384

noncomputable section

namespace Cert.KernelIdeal.Value2

open Cert.KernelIdeal Cert.KernelIdeal.Gen Cert.KernelIdeal.Hand
open Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle tile leaves in the accumulator what it found there plus the tile's weighted sum. -/
theorem acc_B (c : Dev nD) (i : grid0.Coords) (a3 : Memref sig .tc .vmem S1x1024x1024 .f32) (h3 : a3.IsWhole) (a4 : Memref sig .tc .vmem S1x1024x128 .f32) (h4 : a4.IsWhole) (a5 : Memref sig .tc .vmem S1x1024x128 .f32) (h5 : a5.IsWhole) (a6 : Memref sig .tc .vmem S1x1x1 .f32) (h6 : a6.IsWhole) (a7 : Memref sig .tc .vmem S1x1 .f32) (h7 : a7.IsWhole) (hc0 : ¬cond0_0 i) (hc1 : ¬cond0_1 i)
    (x0 : Vec F S1x1024x1024 .f32) (x1 x2 : Vec F S1x1024x128 .f32) (xs0 : Vec F S1x1 .f32) :
    sout0_B_0 c i a3 h3 a4 h4 a5 h5 a6 h6 a7 h7 hc0 hc1 x0 x1 x2 xs0 = k0_pay1 (k0_pay4 x1 x2 x0) xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero hz2]
  simp only [View.readAt_eq_ld, h3.read_unread, h4.read_unread, h5.read_unread, h7.read_unread,
    View.ld_unit_zero (S := S1x1) hz2, View.ld_unit_zero (S := S1x1024x128) hz3, View.ld_unit_zero (S := S1x1024x1024) hz3]

/-- A graph's first tile leaves in the accumulator the reset value plus the tile's weighted sum. -/
theorem acc_A (c : Dev nD) (i : grid0.Coords) (a3 : Memref sig .tc .vmem S1x1024x1024 .f32) (h3 : a3.IsWhole) (a4 : Memref sig .tc .vmem S1x1024x128 .f32) (h4 : a4.IsWhole) (a5 : Memref sig .tc .vmem S1x1024x128 .f32) (h5 : a5.IsWhole) (a6 : Memref sig .tc .vmem S1x1x1 .f32) (h6 : a6.IsWhole) (a7 : Memref sig .tc .vmem S1x1 .f32) (h7 : a7.IsWhole) (hc0 : cond0_0 i) (hc1 : ¬cond0_1 i)
    (x0 : Vec F S1x1024x1024 .f32) (x1 x2 : Vec F S1x1024x128 .f32) :
    sout0_A_0 c i a3 h3 a4 h4 a5 h5 a6 h6 a7 h7 hc0 hc1 x0 x1 x2 = k0_pay1 (k0_pay4 x1 x2 x0) (k0_pay3 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1x1) hz2, View.readCov_unit_zero (S := S1x1) _ hz2]
  simp only [View.readAt_eq_ld, h3.read_unread, h4.read_unread, h5.read_unread,
    View.ld_unit_zero (S := S1x1024x128) hz3, View.ld_unit_zero (S := S1x1024x1024) hz3]

/-- A graph's last tile leaves in the accumulator what it found there plus the tile's weighted sum, -/
theorem acc_C (c : Dev nD) (i : grid0.Coords) (a3 : Memref sig .tc .vmem S1x1024x1024 .f32) (h3 : a3.IsWhole) (a4 : Memref sig .tc .vmem S1x1024x128 .f32) (h4 : a4.IsWhole) (a5 : Memref sig .tc .vmem S1x1024x128 .f32) (h5 : a5.IsWhole) (a6 : Memref sig .tc .vmem S1x1x1 .f32) (h6 : a6.IsWhole) (a7 : Memref sig .tc .vmem S1x1 .f32) (h7 : a7.IsWhole) (hc0 : ¬cond0_0 i) (hc1 : cond0_1 i)
    (x0 : Vec F S1x1024x1024 .f32) (x1 x2 : Vec F S1x1024x128 .f32) (xs0 : Vec F S1x1 .f32) :
    sout0_C_0 c i a3 h3 a4 h4 a5 h5 a6 h6 a7 h7 hc0 hc1 x0 x1 x2 xs0 = k0_pay1 (k0_pay4 x1 x2 x0) xs0 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz2]
  simp only [View.readAt_eq_ld, h3.read_unread, h4.read_unread, h5.read_unread, h7.read_unread,
    View.ld_unit_zero (S := S1x1) hz2, View.ld_unit_zero (S := S1x1024x128) hz3, View.ld_unit_zero (S := S1x1024x1024) hz3]

/-- and in the output cell a copy of that. -/
theorem out_C (c : Dev nD) (i : grid0.Coords) (a3 : Memref sig .tc .vmem S1x1024x1024 .f32) (h3 : a3.IsWhole) (a4 : Memref sig .tc .vmem S1x1024x128 .f32) (h4 : a4.IsWhole) (a5 : Memref sig .tc .vmem S1x1024x128 .f32) (h5 : a5.IsWhole) (a6 : Memref sig .tc .vmem S1x1x1 .f32) (h6 : a6.IsWhole) (a7 : Memref sig .tc .vmem S1x1 .f32) (h7 : a7.IsWhole) (hc0 : ¬cond0_0 i) (hc1 : cond0_1 i)
    (x0 : Vec F S1x1024x1024 .f32) (x1 x2 : Vec F S1x1024x128 .f32) (xs0 : Vec F S1x1 .f32) :
    out0_C_3 c i a3 h3 a4 h4 a5 h5 a6 h6 a7 h7 hc0 hc1 x0 x1 x2 xs0 = k0_pay2 (k0_pay1 (k0_pay4 x1 x2 x0) xs0) := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz3, View.readCov_unit_zero (S := S1x1) _ hz2]
  simp only [View.readAt_eq_ld, h3.read_unread, h4.read_unread, h5.read_unread, h7.read_unread,
    View.ld_unit_zero (S := S1x1) hz2, View.ld_unit_zero (S := S1x1024x128) hz3, View.ld_unit_zero (S := S1x1024x1024) hz3]

end Cert.KernelIdeal.Value2

end
-- ==== Proof.KIValue2.lean ====
/-
  The tile's weighted sum, read at the extended reals.

  From a 1024 × 1024 block W of weights and two 1024 × 128 blocks X (rows) and Y (columns) of embeddings the body
  computes one number,

      Σ_r Σ_q  W[r,q] · max( (Σ_d X[r,d]² + Σ_d Y[q,d]²) + Σ_d (X[r,d]·(−2))·Y[q,d] , 0 ) :

  the squared norms are lane sums kept as columns, the column block's norms transposed into a row, both spread over
  the tile; the inner products come from one matrix product of X scaled by −2 with Y, accumulated from zero; the
  clipped sum is weighted, summed along rows and then down the column of row sums.  The stages are named here one by
  one, each read at an index written by its coordinates, and composed.  Changes of float format are the identity on
  extended reals; the words of −2.0 and 0.0 denote −2 and 0.
-/
import proofs.«135550_j86766929314299_2_alg».proof.Proof.Gen.KernelIdeal.Skeleton
import proofs.«135550_j86766929314299_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Value2

open Cert.KernelIdeal Cert.KernelIdeal.Gen
open Idealize.ShloMosaic Idealize.ShloMosaic.ValueIdx

/-! ## The words -/

/-- The word of −2.0 denotes the real number −2. -/
theorem ofBits_neg_two : Ideal.ofBits .f32 0xC0000000#32 = ((-2 : ℝ) : EReal) := by
  simp [Ideal.ofBits, Ideal.ieee, -EReal.coe_mul]; norm_num

/-! ## Layout steps at coordinates -/

/-- A vector of 1024 entries kept as a 1024 × 1 column reads, at (r, 0), entry r. -/
theorem col_apply (v : FVec Ideal S1024 .f32) (h : S1024.ShapeCasts S1024x1) (r : Fin 1024) (u : Fin 1) :
    shapeCast S1024x1 v h (ix2 r u) = v (ix1 r) :=
  shapeCast_apply v h _ _ (by
    have hu : u.val = 0 := by omega
    rw [Shape.rowMajor_val_two, Shape.rowMajor_val_one]
    show r.val = r.val * 1 + u.val
    omega)

/-- A 1024 × 1 column spread over 1024 columns reads, at (r, q), the column's entry r. -/
theorem spread_col_apply (v : FVec Ideal S1024x1 .f32) (h : S1024x1.Broadcasts S1024x1024) (r q : Fin 1024) :
    broadcastTo S1024x1024 v h (ix2 r q) = v (ix2 r (0 : Fin 1)) := by
  refine broadcastTo_apply v h (ix2 r q) (ix2 r (0 : Fin 1)) fun ax => ?_
  match ax with
  | ⟨0, _⟩ =>
    show r.val = if (1024 : Nat) = 1 then 0 else r.val
    rw [if_neg (by decide)]
  | ⟨1, _⟩ =>
    show 0 = if (1 : Nat) = 1 then 0 else q.val
    rw [if_pos rfl]

/-- A sum along the 128 lanes of a 1024 × 128 array reads, at r, the sum of row r. -/
theorem lanesum_apply (src : FVec Ideal S1024x128 .f32) (h : S1024x128.Reduces [1] S1024) (hφ : FKind.Formats .f32)
    (hacc : (0x00000000#32 : BitVec FTy.f32.bits) = FKind.add.neutral .f32 hφ) (r : Fin 1024) :
    multiReduction .add [1] S1024 src 0x00000000#32 h hφ hacc (ix1 r) = ∑ d : Fin 128, src (ix2 r d) :=
  (Ideal.multiReduction_add_single src 0x00000000#32 h hφ hacc (ix1 r)).trans
    (Finset.sum_congr rfl fun d _ => congrArg src (funext fun a => Fin.ext (by
      match a with | ⟨0, _⟩ => rfl | ⟨1, _⟩ => rfl)))

/-- A sum along the 1024 columns of a 1024 × 1024 array reads, at r, the sum of row r. -/
theorem rowsum_apply (src : FVec Ideal S1024x1024 .f32) (h : S1024x1024.Reduces [1] S1024) (hφ : FKind.Formats .f32)
    (hacc : (0x00000000#32 : BitVec FTy.f32.bits) = FKind.add.neutral .f32 hφ) (r : Fin 1024) :
    multiReduction .add [1] S1024 src 0x00000000#32 h hφ hacc (ix1 r) = ∑ q : Fin 1024, src (ix2 r q) :=
  (Ideal.multiReduction_add_single src 0x00000000#32 h hφ hacc (ix1 r)).trans
    (Finset.sum_congr rfl fun q _ => congrArg src (funext fun a => Fin.ext (by
      match a with | ⟨0, _⟩ => rfl | ⟨1, _⟩ => rfl)))

/-- A sum down a 1024 × 1 column reads, at its one index, the sum of the column. -/
theorem colsum_apply (src : FVec Ideal S1024x1 .f32) (h : S1024x1.Reduces [0] S1) (hφ : FKind.Formats .f32)
    (hacc : (0x00000000#32 : BitVec FTy.f32.bits) = FKind.add.neutral .f32 hφ) (u : Fin 1) :
    multiReduction .add [0] S1 src 0x00000000#32 h hφ hacc (ix1 u) = ∑ r : Fin 1024, src (ix2 r u) :=
  (Ideal.multiReduction_add_single src 0x00000000#32 h hφ hacc (ix1 u)).trans
    (Finset.sum_congr rfl fun r _ => congrArg src (funext fun a => Fin.ext (by
      match a with | ⟨0, _⟩ => rfl | ⟨1, _⟩ => rfl)))

/-- The left operand's row at output (r, q) is r, -/
theorem lhs_row (i : S1024x1024.Idx) (k : dot_S1024x128_S1024x128_S1024x1024_1_1_0_0_n_n.contr.Idx) :
    (dot_S1024x128_S1024x128_S1024x1024_1_1_0_0_n_n.lhsIdx i k 0).val = (i 0).val := by
  unfold DotDims.lhsIdx
  rw [dif_neg (show ¬(0 : Fin S1024x128.rank) ∈ dot_S1024x128_S1024x128_S1024x1024_1_1_0_0_n_n.lhsBatch by decide), dif_pos (show (0 : Fin S1024x128.rank) ∈ dot_S1024x128_S1024x128_S1024x1024_1_1_0_0_n_n.lhsNonContracting by decide)]
  rfl
/-- and the right operand's row is q. -/
theorem rhs_row (i : S1024x1024.Idx) (k : dot_S1024x128_S1024x128_S1024x1024_1_1_0_0_n_n.contr.Idx) :
    (dot_S1024x128_S1024x128_S1024x1024_1_1_0_0_n_n.rhsIdx i k 0).val = (i 1).val := by
  unfold DotDims.rhsIdx
  rw [dif_neg (show ¬(0 : Fin S1024x128.rank) ∈ dot_S1024x128_S1024x128_S1024x1024_1_1_0_0_n_n.rhsBatch by decide), dif_pos (show (0 : Fin S1024x128.rank) ∈ dot_S1024x128_S1024x128_S1024x1024_1_1_0_0_n_n.rhsNonContracting by decide)]
  rfl

/-- The matrix product of two 1024 × 128 arrays along their lanes, accumulated from zero, reads, at (r, q), the inner
    product of row r of the left with row q of the right. -/
theorem gram_apply {φ₁ φ₂ : FTy} (l : FVec Ideal S1024x128 φ₁) (rr : FVec Ideal S1024x128 φ₂) (r q : Fin 1024) :
    matmul dot_S1024x128_S1024x128_S1024x1024_1_1_0_0_n_n none l rr (constant S1024x1024 .f32 0x00000000#32) (ix2 r q)
      = ∑ d : Fin 128, l (ix2 r d) * rr (ix2 q d) := by
  refine (Ideal.matmul_constant_zero_apply dot_S1024x128_S1024x128_S1024x1024_1_1_0_0_n_n none l rr (ix2 r q)).trans ?_
  rw [← Equiv.sum_comp (contrEquiv1 dot_S1024x128_S1024x128_S1024x1024_1_1_0_0_n_n 128 rfl rfl).symm]
  refine Finset.sum_congr rfl fun d _ => ?_
  have hd := contrEquiv1_symm_val dot_S1024x128_S1024x128_S1024x1024_1_1_0_0_n_n 128 rfl rfl d
  have el : dot_S1024x128_S1024x128_S1024x1024_1_1_0_0_n_n.lhsIdx (ix2 r q) ((contrEquiv1 dot_S1024x128_S1024x128_S1024x1024_1_1_0_0_n_n 128 rfl rfl).symm d) = ix2 r d :=
    funext fun a => Fin.ext (by
      match a with
      | ⟨0, _⟩ => exact lhs_row _ _
      | ⟨1, _⟩ => exact (dot_S1024x128_S1024x128_S1024x1024_1_1_0_0_n_n.lhsIdx_val_of_single rfl (ix2 r q) _).trans hd)
  have er : dot_S1024x128_S1024x128_S1024x1024_1_1_0_0_n_n.rhsIdx (ix2 r q) ((contrEquiv1 dot_S1024x128_S1024x128_S1024x1024_1_1_0_0_n_n 128 rfl rfl).symm d) = ix2 q d :=
    funext fun a => Fin.ext (by
      match a with
      | ⟨0, _⟩ => exact rhs_row _ _
      | ⟨1, _⟩ => exact (dot_S1024x128_S1024x128_S1024x1024_1_1_0_0_n_n.rhsIdx_val_of_single rfl (ix2 r q) _).trans hd)
  rw [el, er]

/-! ## The stages of the tile sum -/

/-- A 1 × 1024 × 128 block as a 1024 × 128 matrix. -/
def MAT (x : Vec Ideal S1x1024x128 .f32) : FVec Ideal S1024x128 .f32 :=
  shapeCast S1024x128 x shapeCasts_S1x1024x128_S1024x128
theorem MAT_apply (x : Vec Ideal S1x1024x128 .f32) (r : Fin 1024) (d : Fin 128) :
    MAT x (ix2 r d) = x (ix3 (0 : Fin 1) r d) :=
  shapeCast_1ab_ab_apply x _ r d

/-- The squared norms of its rows, as a column. -/
def SQCOL (x : Vec Ideal S1x1024x128 .f32) : FVec Ideal S1024x1 .f32 :=
  shapeCast S1024x1 (multiReduction .add [1] S1024 (mulf (MAT x) (MAT x)) 0x00000000#32 reduces_S1024x128_S1024 (.inl rfl) rfl) shapeCasts_S1024_S1024x1
theorem SQCOL_apply (x : Vec Ideal S1x1024x128 .f32) (r : Fin 1024) (u : Fin 1) :
    SQCOL x (ix2 r u) = ∑ d : Fin 128, x (ix3 (0 : Fin 1) r d) * x (ix3 (0 : Fin 1) r d) := by
  unfold SQCOL
  refine (col_apply _ _ r u).trans ?_
  refine (lanesum_apply _ _ _ _ r).trans ?_
  refine Finset.sum_congr rfl fun d _ => ?_
  show MAT x (ix2 r d) * MAT x (ix2 r d) = _
  rw [MAT_apply]

/-- The inner products of the rows of X scaled by −2 with the rows of Y. -/
def GRAM (x y : Vec Ideal S1x1024x128 .f32) : FVec Ideal S1024x1024 .f32 :=
  matmul dot_S1024x128_S1024x128_S1024x1024_1_1_0_0_n_n none
    (truncf .bf16 (mulf (MAT x) (broadcast S1024x128 (Scalar.ofBits .f32 0xC0000000#32))) bitsLt_bf16_f32)
    (truncf .bf16 (MAT y) bitsLt_bf16_f32) (constant S1024x1024 .f32 0x00000000#32)
theorem GRAM_apply (x y : Vec Ideal S1x1024x128 .f32) (r q : Fin 1024) :
    GRAM x y (ix2 r q) = ∑ d : Fin 128, (x (ix3 (0 : Fin 1) r d) * ((-2 : ℝ) : EReal)) * y (ix3 (0 : Fin 1) q d) := by
  unfold GRAM
  refine (gram_apply _ _ r q).trans ?_
  refine Finset.sum_congr rfl fun d _ => ?_
  show (MAT x (ix2 r d) * Ideal.ofBits .f32 0xC0000000#32) * MAT y (ix2 q d) = _
  rw [MAT_apply, MAT_apply, ofBits_neg_two]

/-- The clipped squared distances of the tile. -/
def DIST (x y : Vec Ideal S1x1024x128 .f32) : FVec Ideal S1024x1024 .f32 :=
  maximumf (addf (addf (broadcastTo S1024x1024 (SQCOL x) broadcasts_S1024x1_S1024x1024)
      (broadcastTo S1024x1024 (transpose S1x1024 [1, 0] (SQCOL y) transposes_S1024x1_p1_0_S1x1024) broadcasts_S1x1024_S1024x1024))
      (GRAM x y)) (broadcast S1024x1024 (Scalar.ofBits .f32 0x00000000#32))
theorem DIST_apply (x y : Vec Ideal S1x1024x128 .f32) (r q : Fin 1024) :
    DIST x y (ix2 r q)
      = max ((∑ d : Fin 128, x (ix3 (0 : Fin 1) r d) * x (ix3 (0 : Fin 1) r d)
              + ∑ d : Fin 128, y (ix3 (0 : Fin 1) q d) * y (ix3 (0 : Fin 1) q d))
            + ∑ d : Fin 128, (x (ix3 (0 : Fin 1) r d) * ((-2 : ℝ) : EReal)) * y (ix3 (0 : Fin 1) q d)) 0 := by
  unfold DIST
  show max ((broadcastTo S1024x1024 (SQCOL x) broadcasts_S1024x1_S1024x1024 (ix2 r q)
      + broadcastTo S1024x1024 (transpose S1x1024 [1, 0] (SQCOL y) transposes_S1024x1_p1_0_S1x1024) broadcasts_S1x1024_S1024x1024 (ix2 r q))
      + GRAM x y (ix2 r q)) (Ideal.ofBits .f32 0x00000000#32) = _
  rw [spread_col_apply, broadcastTo_1b_ab_apply, transpose_ix2_apply, SQCOL_apply, SQCOL_apply, GRAM_apply,
    Ideal.ofBits_zero_f32]

/-- The tile's weighted sum, as the 1 × 1 vector the body adds to the accumulator. -/
def TILE (w : Vec Ideal S1x1024x1024 .f32) (x y : Vec Ideal S1x1024x128 .f32) : FVec Ideal S1x1 .f32 :=
  shapeCast S1x1 (multiReduction .add [0] S1
    (shapeCast S1024x1 (multiReduction .add [1] S1024
      (mulf (shapeCast S1024x1024 w shapeCasts_S1x1024x1024_S1024x1024) (DIST x y))
      0x00000000#32 reduces_S1024x1024_S1024 (.inl rfl) rfl) shapeCasts_S1024_S1024x1)
    0x00000000#32 reduces_S1024x1_S1 (.inl rfl) rfl) shapeCasts_S1_S1x1

/-- The payload the body computes is this composition, stage by stage. -/
theorem pay4_eq (w : Vec Ideal S1x1024x1024 .f32) (x y : Vec Ideal S1x1024x128 .f32) :
    k0_pay4 (F := Ideal) x y w = TILE w x y := rfl

/-- The tile's weighted sum as a number. -/
def tile (w : Vec Ideal S1x1024x1024 .f32) (x y : Vec Ideal S1x1024x128 .f32) : EReal :=
  ∑ r : Fin 1024, ∑ q : Fin 1024, w (ix3 (0 : Fin 1) r q)
    * max ((∑ d : Fin 128, x (ix3 (0 : Fin 1) r d) * x (ix3 (0 : Fin 1) r d)
              + ∑ d : Fin 128, y (ix3 (0 : Fin 1) q d) * y (ix3 (0 : Fin 1) q d))
            + ∑ d : Fin 128, (x (ix3 (0 : Fin 1) r d) * ((-2 : ℝ) : EReal)) * y (ix3 (0 : Fin 1) q d)) 0

theorem TILE_apply (w : Vec Ideal S1x1024x1024 .f32) (x y : Vec Ideal S1x1024x128 .f32) (u v : Fin 1) :
    TILE w x y (ix2 u v) = tile w x y := by
  unfold TILE tile
  refine (shapeCast_a_1a_apply _ _ u v).trans ?_
  refine (colsum_apply _ _ _ _ v).trans ?_
  refine Finset.sum_congr rfl fun r _ => ?_
  refine (col_apply _ _ r v).trans ?_
  refine (rowsum_apply _ _ _ _ r).trans ?_
  refine Finset.sum_congr rfl fun q _ => ?_
  show shapeCast S1024x1024 w shapeCasts_S1x1024x1024_S1024x1024 (ix2 r q) * DIST x y (ix2 r q) = _
  rw [shapeCast_1ab_ab_apply, DIST_apply]

/-- The payload at its one index. -/
theorem pay4_apply (w : Vec Ideal S1x1024x1024 .f32) (x y : Vec Ideal S1x1024x128 .f32) (j : S1x1.Idx) :
    k0_pay4 (F := Ideal) x y w j = tile w x y := by
  rw [pay4_eq, eq_ix2 j]
  exact TILE_apply w x y _ _

/-- When the three blocks are tile (i, j) of graph b of the weights and the embeddings, the number is that tile's sum in
    the specification's tiled arrangement. -/
theorem tile_eq_tileK (w : Vec Ideal S1x1024x1024 .f32) (x y : Vec Ideal S1x1024x128 .f32)
    (A : Cert.Smooth.Adj) (E : Cert.Smooth.Emb) (b : Fin 8) (i j : Fin 2)
    (hw : ∀ r q : Fin 1024, w (ix3 (0 : Fin 1) r q) = A (ix3 b (Cert.Smooth.node i r) (Cert.Smooth.node j q)))
    (hx : ∀ (r : Fin 1024) (d : Fin 128), x (ix3 (0 : Fin 1) r d) = E (ix3 b (Cert.Smooth.node i r) d))
    (hy : ∀ (q : Fin 1024) (d : Fin 128), y (ix3 (0 : Fin 1) q d) = E (ix3 b (Cert.Smooth.node j q) d)) :
    tile w x y = Cert.Smooth.tileK A E b i j := by
  unfold tile Cert.Smooth.tileK Cert.Smooth.distK Cert.Smooth.sqn
  simp only [hw, hx, hy]

/-! ## The accumulator's steps and the copy-out -/

/-- The reset value is zero. -/
theorem pay3_apply (j : S1x1.Idx) : k0_pay3 (F := Ideal) j = 0 := by
  unfold k0_pay3
  rw [shapeCast_self]
  exact Ideal.ofBits_zero_f32

/-- The add leaves the accumulator plus the tile sum. -/
theorem pay1_apply (v33 v34 : FVec Ideal S1x1 .f32) (j : S1x1.Idx) : k0_pay1 (F := Ideal) v33 v34 j = v34 j + v33 j := by
  unfold k0_pay1
  rw [shapeCast_self]
  rfl

/-- The copy-out puts the accumulator's one entry in the output cell. -/
theorem pay2_apply (v : FVec Ideal S1x1 .f32) (a : Fin 1) (b : Fin 1) (c : Fin 1) :
    k0_pay2 (F := Ideal) v (ix3 a b c) = v (ix2 b c) :=
  shapeCast_ab_1ab_apply v _ a b c

end Cert.KernelIdeal.Value2

end
-- ==== Proof.KIValue3.lean ====
/-
  Where the body's three input blocks sit in the argument arrays.

  Grid point t is graph b = t / 4, row tile i = (t % 4) / 2, column tile j = t % 2.  The weight window's block at t
  is rows 1024·i … 1024·i + 1023 and columns 1024·j … 1024·j + 1023 of graph b's matrix; the first embedding window's
  block is the rows of tile i of graph b's embeddings and the second's the rows of tile j.  A block's element sits in
  the array, on each axis, at the block index times the block's extent plus its own coordinate; the three block
  indices are decided once over the 32 points.
-/
import proofs.«135550_j86766929314299_2_alg».proof.Proof.KIRuns
import proofs.«135550_j86766929314299_2_alg».proof.Proof.Spec
import Idealize.ShloMosaic.Lib.Pipeline.Value
import Idealize.ShloMosaic.Lib.ValueIdx

set_option maxRecDepth 16384

noncomputable section

namespace Cert.KernelIdeal.Value2

open Cert.KernelIdeal Cert.KernelIdeal.Gen Cert.KernelIdeal.Hand
open Idealize.ShloMosaic Idealize.ShloMosaic.TcCoe Idealize.SL.Sem Idealize.ShloMosaic.ValueIdx
open Cert.Smooth (node)

variable {F : FTy → Type} [FloatOps F]
variable (m : (ℓ : Loc nD τ sig) → Buf (Elt F) ℓ)

/-- The graph of point t. -/
def gB (t : Fin cfg0.N) : Fin 8 := ⟨t.val / 4, by have h := t.isLt; have hN : cfg0.N = 32 := N_0; omega⟩
/-- The row tile of point t. -/
def gI (t : Fin cfg0.N) : Fin 2 := ⟨t.val % 4 / 2, by omega⟩
/-- The column tile of point t. -/
def gJ (t : Fin cfg0.N) : Fin 2 := ⟨t.val % 2, by omega⟩

/-- The weight window's block index at t is (b, i, j). -/
theorem idx0 : ∀ t : Fin cfg0.N, win0_0.index t (0 : Fin 3) = t.val / 4 ∧ win0_0.index t (1 : Fin 3) = t.val % 4 / 2 ∧ win0_0.index t (2 : Fin 3) = t.val % 2 :=
  (by decide +kernel : ∀ t : Fin grid0.N, win0_0.index t (0 : Fin 3) = t.val / 4 ∧ win0_0.index t (1 : Fin 3) = t.val % 4 / 2 ∧ win0_0.index t (2 : Fin 3) = t.val % 2)
/-- The first embedding window's is (b, i, 0). -/
theorem idx1 : ∀ t : Fin cfg0.N, win0_1.index t (0 : Fin 3) = t.val / 4 ∧ win0_1.index t (1 : Fin 3) = t.val % 4 / 2 ∧ win0_1.index t (2 : Fin 3) = 0 :=
  (by decide +kernel : ∀ t : Fin grid0.N, win0_1.index t (0 : Fin 3) = t.val / 4 ∧ win0_1.index t (1 : Fin 3) = t.val % 4 / 2 ∧ win0_1.index t (2 : Fin 3) = 0)
/-- The second embedding window's is (b, j, 0). -/
theorem idx2 : ∀ t : Fin cfg0.N, win0_2.index t (0 : Fin 3) = t.val / 4 ∧ win0_2.index t (1 : Fin 3) = t.val % 2 ∧ win0_2.index t (2 : Fin 3) = 0 :=
  (by decide +kernel : ∀ t : Fin grid0.N, win0_2.index t (0 : Fin 3) = t.val / 4 ∧ win0_2.index t (1 : Fin 3) = t.val % 2 ∧ win0_2.index t (2 : Fin 3) = 0)
/-- The output window's is (b, 0, 0). -/
theorem idx3 : ∀ t : Fin cfg0.N, win0_3.index t (0 : Fin 3) = t.val / 4 ∧ win0_3.index t (1 : Fin 3) = 0 ∧ win0_3.index t (2 : Fin 3) = 0 :=
  (by decide +kernel : ∀ t : Fin grid0.N, win0_3.index t (0 : Fin 3) = t.val / 4 ∧ win0_3.index t (1 : Fin 3) = 0 ∧ win0_3.index t (2 : Fin 3) = 0)

/-- The weight block at t, at (0, r, q): the weight of nodes 1024·i + r and 1024·j + q of graph b. -/
theorem blk0_apply (c : Dev nD) (t : Fin cfg0.N) (r q : Fin 1024) :
    (iblk m c 0 t : Vec F S1x1024x1024 .f32) (ix3 (0 : Fin 1) r q)
      = m ((c : Thread nD τ).loc main_arg0) (ix3 (gB t) (node (gI t) r) (node (gJ t) q)) := by
  obtain ⟨h0, h1, h2⟩ := idx0 t
  unfold iblk
  rw [View.read_apply]
  show V m c main_arg0 _ = m (c.tc.loc main_arg0) _
  unfold V
  refine congrArg _ (funext fun a => Fin.ext ?_)
  match a with
  | ⟨0, _⟩ => show win0_0.index t (0 : Fin 3) * 1 + 1 * 0 = t.val / 4; rw [h0]; omega
  | ⟨1, _⟩ => show win0_0.index t (1 : Fin 3) * 1024 + 1 * r.val = 1024 * (t.val % 4 / 2) + r.val; rw [h1]; omega
  | ⟨2, _⟩ => show win0_0.index t (2 : Fin 3) * 1024 + 1 * q.val = 1024 * (t.val % 2) + q.val; rw [h2]; omega

/-- The row block at t, at (0, r, d): entry d of node 1024·i + r of graph b. -/
theorem blk1_apply (c : Dev nD) (t : Fin cfg0.N) (r : Fin 1024) (d : Fin 128) :
    (iblk m c 1 t : Vec F S1x1024x128 .f32) (ix3 (0 : Fin 1) r d)
      = m ((c : Thread nD τ).loc main_arg1) (ix3 (gB t) (node (gI t) r) d) := by
  obtain ⟨h0, h1, h2⟩ := idx1 t
  unfold iblk
  rw [View.read_apply]
  show V m c main_arg1 _ = m (c.tc.loc main_arg1) _
  unfold V
  refine congrArg _ (funext fun a => Fin.ext ?_)
  match a with
  | ⟨0, _⟩ => show win0_1.index t (0 : Fin 3) * 1 + 1 * 0 = t.val / 4; rw [h0]; omega
  | ⟨1, _⟩ => show win0_1.index t (1 : Fin 3) * 1024 + 1 * r.val = 1024 * (t.val % 4 / 2) + r.val; rw [h1]; omega
  | ⟨2, _⟩ => show win0_1.index t (2 : Fin 3) * 128 + 1 * d.val = d.val; rw [h2]; omega

/-- The column block at t, at (0, q, d): entry d of node 1024·j + q of graph b. -/
theorem blk2_apply (c : Dev nD) (t : Fin cfg0.N) (q : Fin 1024) (d : Fin 128) :
    (iblk m c 2 t : Vec F S1x1024x128 .f32) (ix3 (0 : Fin 1) q d)
      = m ((c : Thread nD τ).loc main_arg1) (ix3 (gB t) (node (gJ t) q) d) := by
  obtain ⟨h0, h1, h2⟩ := idx2 t
  unfold iblk
  rw [View.read_apply]
  show V m c main_arg1 _ = m (c.tc.loc main_arg1) _
  unfold V
  refine congrArg _ (funext fun a => Fin.ext ?_)
  match a with
  | ⟨0, _⟩ => show win0_2.index t (0 : Fin 3) * 1 + 1 * 0 = t.val / 4; rw [h0]; omega
  | ⟨1, _⟩ => show win0_2.index t (1 : Fin 3) * 1024 + 1 * q.val = 1024 * (t.val % 2) + q.val; rw [h1]; omega
  | ⟨2, _⟩ => show win0_2.index t (2 : Fin 3) * 128 + 1 * d.val = d.val; rw [h2]; omega

end Cert.KernelIdeal.Value2

end
-- ==== Proof.KIValue.lean ====
/-
  The kernel's result: the tiled arrangement of the loss's numerator, divided by the word of 16384.

  At the extended reals the accumulator's steps are plain additions.  After point t = 4b + k the accumulator holds
  the sum of the first k + 1 tile sums of graph b — by induction on the point: a graph's first point starts from the
  reset value zero, every other point adds its tile to what the point before left.  A point's tile sum is tile
  ((t % 4) / 2, t % 2) of graph t / 4 of the specification's tiled arrangement, because its three blocks are those
  tiles of the argument arrays.  At t = 4b + 3 the output cell's staging value is the accumulator, that is the sum of
  graph b's four tiles; only those points write back, each into cell b of the 8 × 1 × 1 output array, and together
  they cover it.  The host then adds the eight cells to a zero word and divides by the word of 16384.  Sums are regrouped
  in a commutative monoid only; nothing here uses finiteness of any entry.
-/
import proofs.«135550_j86766929314299_2_alg».proof.Proof.KIValue1
import proofs.«135550_j86766929314299_2_alg».proof.Proof.KIValue2
import proofs.«135550_j86766929314299_2_alg».proof.Proof.KIValue3

set_option maxRecDepth 16384

noncomputable section

namespace Cert.KernelIdeal.Value2

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Cert.Smooth (tileK totalK)

variable (m : (ℓ : Loc nD τ sig) → Buf (Elt Ideal) ℓ)

/-- The argument arrays are the specification's weight and embedding arrays. -/
example (c : Dev nD) : Buf (Elt Ideal) ((c : Thread nD τ).loc main_arg0) = Cert.Smooth.Adj := rfl
example (c : Dev nD) : Buf (Elt Ideal) ((c : Thread nD τ).loc main_arg1) = Cert.Smooth.Emb := rfl

/-- The weights a device starts from. -/
abbrev AA (c : Dev nD) : Cert.Smooth.Adj := m ((c : Thread nD τ).loc main_arg0)
/-- The embeddings a device starts from. -/
abbrev EE (c : Dev nD) : Cert.Smooth.Emb := m ((c : Thread nD τ).loc main_arg1)

/-- The tile sum of point n (zero past the grid). -/
def TK (c : Dev nD) (n : ℕ) : EReal :=
  if h : n < cfg0.N then tileK (AA m c) (EE m c) (gB ⟨n, h⟩) (gI ⟨n, h⟩) (gJ ⟨n, h⟩) else 0

/-- The body's tile sum at point t is that. -/
theorem tile_at (c : Dev nD) (t : Fin cfg0.N) :
    tile (iblk m c 0 t) (iblk m c 1 t) (iblk m c 2 t) = TK m c t.val := by
  unfold TK
  rw [dif_pos t.isLt]
  exact tile_eq_tileK (iblk m c 0 t) (iblk m c 1 t) (iblk m c 2 t) (AA m c) (EE m c) (gB t) (gI t) (gJ t)
    (blk0_apply m c t) (blk1_apply m c t) (blk2_apply m c t)

/-! ## The accumulator, point by point -/

/-- A graph's first point leaves its tile sum. -/
theorem acc_first (c : Dev nD) (t : Fin cfg0.N) (h0 : t.val % 4 = 0) (j : S1x1.Idx) :
    (outsAt0 m c t.val t.isLt).2 j = TK m c t.val := by
  have h1 : ¬t.val % 4 = 3 := by omega
  refine (congrFun (congrArg Prod.snd (outsAt0_A m c t h0 h1)) j).trans ?_
  refine (congrFun (acc_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) j).trans ?_
  refine (pay1_apply (k0_pay4 (iblk m c 1 t) (iblk m c 2 t) (iblk m c 0 t)) k0_pay3 j).trans ?_
  rw [pay3_apply j, zero_add]
  exact (pay4_apply (iblk m c 0 t) (iblk m c 1 t) (iblk m c 2 t) j).trans (tile_at m c t)

/-- Every other point adds its tile sum to what the point before left. -/
theorem acc_next (c : Dev nD) (t : Fin cfg0.N) (h0 : ¬t.val % 4 = 0) (j : S1x1.Idx) :
    (outsAt0 m c t.val t.isLt).2 j
      = (outsAt0 m c (t.val - 1) (Nat.lt_of_le_of_lt (Nat.sub_le _ _) t.isLt)).2 j + TK m c t.val := by
  by_cases h1 : t.val % 4 = 3
  · refine (congrFun (congrArg Prod.snd (outsAt0_C m c t h0 h1)) j).trans ?_
    refine (congrFun (acc_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) j).trans ?_
    refine (pay1_apply (k0_pay4 (iblk m c 1 t) (iblk m c 2 t) (iblk m c 0 t)) _ j).trans ?_
    exact congrArg (_ + ·) ((pay4_apply (iblk m c 0 t) (iblk m c 1 t) (iblk m c 2 t) j).trans (tile_at m c t))
  · refine (congrFun (congrArg Prod.snd (outsAt0_B m c t h0 h1)) j).trans ?_
    refine (congrFun (acc_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) j).trans ?_
    refine (pay1_apply (k0_pay4 (iblk m c 1 t) (iblk m c 2 t) (iblk m c 0 t)) _ j).trans ?_
    exact congrArg (_ + ·) ((pay4_apply (iblk m c 0 t) (iblk m c 1 t) (iblk m c 2 t) j).trans (tile_at m c t))

/-- At a graph's last point the output cell's staging value is the accumulator's. -/
theorem out_last (c : Dev nD) (t : Fin cfg0.N) (h1 : t.val % 4 = 3) (a b q : Fin 1) :
    (outsAt0 m c t.val t.isLt).1 (ix3 a b q) = (outsAt0 m c t.val t.isLt).2 (ix2 b q) := by
  have h0 : ¬t.val % 4 = 0 := by omega
  refine (congrFun (congrArg Prod.fst (outsAt0_C m c t h0 h1)) (ix3 a b q)).trans ?_
  refine Eq.trans ?_ (congrFun (congrArg Prod.snd (outsAt0_C m c t h0 h1)) (ix2 b q)).symm
  refine (congrFun (out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix3 a b q)).trans ?_
  refine Eq.trans ?_ (congrFun (acc_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix2 b q)).symm
  exact pay2_apply _ a b q

/-- After point n the accumulator holds the sum of the tile sums of n's graph up to n. -/
theorem acc_val (c : Dev nD) : ∀ (n : ℕ) (h : n < cfg0.N) (j : S1x1.Idx),
    (outsAt0 m c n h).2 j = ∑ k ∈ Finset.range (n % 4 + 1), TK m c (n - n % 4 + k)
  | 0, h, j => by
    rw [acc_first m c ⟨0, h⟩ rfl j]
    simp
  | n + 1, h, j => by
    by_cases h0 : (n + 1) % 4 = 0
    · rw [acc_first m c ⟨n + 1, h⟩ h0 j, h0]
      simp
    · rw [acc_next m c ⟨n + 1, h⟩ h0 j]
      show (outsAt0 m c n _).2 j + TK m c (n + 1) = _
      rw [acc_val c n (Nat.lt_of_succ_lt h) j]
      have e1 : (n + 1) % 4 = n % 4 + 1 := by omega
      have e2 : n + 1 - (n % 4 + 1) = n - n % 4 := by omega
      have e3 : n - n % 4 + (n % 4 + 1) = n + 1 := by omega
      rw [e1, Finset.sum_range_succ _ (n % 4 + 1), e2, e3]

/-! ## The output array -/

/-- The sum of graph b's four tiles. -/
def graphSum (c : Dev nD) (b : Fin 8) : EReal := ∑ i : Fin 2, ∑ j : Fin 2, tileK (AA m c) (EE m c) b i j

/-- The output array after the run, as numbers: cell b holds graph b's sum. -/
def G0 (c : Dev nD) : S8x1x1.Idx → EReal := fun i => graphSum m c ⟨(i 0).val, (i 0).isLt⟩

/-- The same as contents of the output array. -/
def G (c : Dev nD) : Buf (Elt Ideal) ((c : Thread nD τ).loc main_v0) := G0 m c

/-- A point's tile sum, named by its graph and tile. -/
theorem TK_eq (c : Dev nD) (n : ℕ) (h : n < cfg0.N) (b : Fin 8) (i j : Fin 2) (hb : n / 4 = b.val) (hi : n % 4 / 2 = i.val)
    (hj : n % 2 = j.val) : TK m c n = tileK (AA m c) (EE m c) b i j := by
  unfold TK
  rw [dif_pos h]
  have eb : gB ⟨n, h⟩ = b := Fin.ext hb
  have ei : gI ⟨n, h⟩ = i := Fin.ext hi
  have ej : gJ ⟨n, h⟩ = j := Fin.ext hj
  rw [eb, ei, ej]

/-- At a graph's last point the output cell's staging value is the graph's sum. -/
theorem out_val (c : Dev nD) (t : Fin cfg0.N) (h1 : t.val % 4 = 3) (b : Fin 8) (hb : t.val / 4 = b.val) (j3 : S1x1x1.Idx) :
    (outsAt0 m c t.val t.isLt).1 j3 = graphSum m c b := by
  have hN : cfg0.N = 32 := N_0
  have hlt := t.isLt
  obtain ⟨a, p, q, rfl⟩ : ∃ (a p q : Fin 1), j3 = ix3 a p q := ⟨j3 0, j3 1, j3 2, eq_ix3 j3⟩
  rw [out_last m c t h1 a p q, acc_val m c t.val t.isLt (ix2 p q), h1]
  unfold graphSum
  rw [Finset.sum_range_succ, Finset.sum_range_succ, Finset.sum_range_succ, Finset.sum_range_one, Fin.sum_univ_two,
    Fin.sum_univ_two, Fin.sum_univ_two]
  rw [TK_eq m c (t.val - 3 + 0) (by omega) b 0 0 (by omega) (by show _ = 0; omega) (by show _ = 0; omega),
    TK_eq m c (t.val - 3 + 1) (by omega) b 0 1 (by omega) (by show _ = 0; omega) (by show _ = 1; omega),
    TK_eq m c (t.val - 3 + 2) (by omega) b 1 0 (by omega) (by show _ = 1; omega) (by show _ = 0; omega),
    TK_eq m c (t.val - 3 + 3) (by omega) b 1 1 (by omega) (by show _ = 1; omega) (by show _ = 1; omega)]
  rw [add_assoc]

/-- What a writing point writes back is its cell of that array. -/
theorem flushed_eq (c : Dev nD) (t : Fin cfg0.N) (hf : (cfg0.win 3).flush t = true) :
    (dats m 0 c).flushed 3 t = ((cfg0.win 3).blk t).view.read (Elt Ideal) (G m c) := by
  have hN : cfg0.N = 32 := N_0
  have hlt := t.isLt
  have h1 : t.val % 4 = 3 := (flush0_3 t).mp hf
  obtain ⟨i0, -, -⟩ := idx3 t
  funext y
  have hy0 : (y 0).val < 1 := (y 0).isLt
  show (cfg0.win 3).cut (grid0.coords t) ((dats m 0 c).after 3 t) y = _
  rw [after0_3, View.read_apply]
  refine (out_val m c t h1 ⟨t.val / 4, by omega⟩ rfl _).trans ?_
  show _ = G0 m c (((cfg0.win 3).blk t).view.emb y)
  unfold G0
  refine congrArg (graphSum m c) (Fin.ext ?_)
  show t.val / 4 = win0_3.index t (0 : Fin 3) * 1 + 1 * (y 0).val
  rw [i0]
  omega

/-- The writing points cover the output array. -/
theorem cover (c : Dev nD) (i : ((cfg0.win 3).arr.view.loc (c.tc : Thread nD τ)).2.ty.Idx) :
    ∃ t : Fin cfg0.N, (cfg0.win 3).flush t = true ∧ i ∈ ((cfg0.win 3).blk t).view.set := by
  have hN : cfg0.N = 32 := N_0
  have hi0 : (i 0 : Nat) < 8 := (i 0).isLt
  have hi1 : (i 1 : Nat) < 1 := (i 1).isLt
  have hi2 : (i 2 : Nat) < 1 := (i 2).isLt
  obtain ⟨t, ht⟩ : ∃ t : Fin cfg0.N, t.val = 4 * (i 0 : Nat) + 3 := ⟨⟨4 * (i 0 : Nat) + 3, by omega⟩, rfl⟩
  obtain ⟨j0, j1, j2⟩ := idx3 t
  refine ⟨t, (flush0_3 t).mpr (by omega), ?_⟩
  show i ∈ ((View.whole main_v0).slice (win0_3.rect t)).set
  rw [View.set_slice_whole, Rect.mem_set_unit]
  intro a
  match a with
  | ⟨0, _⟩ =>
    show win0_3.index t (0 : Fin 3) * 1 ≤ (i 0 : Nat) ∧ (i 0 : Nat) < win0_3.index t (0 : Fin 3) * 1 + 1
    rw [j0]; omega
  | ⟨1, _⟩ =>
    show win0_3.index t (1 : Fin 3) * 1 ≤ (i 1 : Nat) ∧ (i 1 : Nat) < win0_3.index t (1 : Fin 3) * 1 + 1
    rw [j1]; omega
  | ⟨2, _⟩ =>
    show win0_3.index t (2 : Fin 3) * 1 ≤ (i 2 : Nat) ∧ (i 2 : Nat) < win0_3.index t (2 : Fin 3) * 1 + 1
    rw [j2]; omega

/-- So the output array ends holding every graph's sum. -/
theorem final_o (c : Dev nD) : (dats m 0 c).arrAt 3 cfg0.N = G m c :=
  (dats m 0 c).arrAt_eq_of_cover 3 (G m c) (flushed_eq m c) (cover c)

/-- The eight cells of the output array, one per graph. -/
def cellEquiv : Fin 8 ≃ (⟨3, ![8, 1, 1]⟩ : Shape).Idx where
  toFun b := ix3 b (0 : Fin 1) (0 : Fin 1)
  invFun i := i 0
  left_inv _ := rfl
  right_inv i := by
    funext a
    match a with
    | ⟨0, _⟩ => rfl
    | ⟨1, _⟩ =>
      refine Fin.ext ?_
      show (0 : Nat) = (i 1 : Nat)
      have h : (i 1 : Nat) < 1 := (i 1).isLt
      omega
    | ⟨2, _⟩ =>
      refine Fin.ext ?_
      show (0 : Nat) = (i 2 : Nat)
      have h : (i 2 : Nat) < 1 := (i 2).isLt
      omega

/-- The sum of the cells is the tiled arrangement's total. -/
theorem sum_G (c : Dev nD) : ∑ i : S8x1x1.Idx, G0 m c i = totalK (AA m c) (EE m c) := by
  rw [← Equiv.sum_comp cellEquiv (G0 m c)]
  rfl

end Cert.KernelIdeal.Value2

namespace Cert.KernelIdeal.Hand

open Cert.KernelIdeal Cert.KernelIdeal.Gen Cert.KernelIdeal.Value2
open Idealize.ShloMosaic Idealize.ShloMosaic.TcCoe Idealize.SL.Sem

/-- What the host computes from the output array after the run: the tiled arrangement's total over the word of
    16384. -/
theorem out_value (m : (ℓ : Loc nD τ sig) → Buf (Elt Ideal) ℓ) (c : Dev nD) :
    Host.divf (F := Ideal) (Host.reduceAdd (F := Ideal) ((dats (F := Ideal) m 0 c).arrAt 3 cfg0.N) (constant (F := Ideal) S_ .f32 0x00000000#32) reducesTo_S8x1x1_S_d0_1_2 h_S_) (constant (F := Ideal) S_ .f32 0x46800000#32)
      = fun _ => Ideal.div (Cert.Smooth.totalK (m ((c : Thread nD τ).loc main_arg0)) (m ((c : Thread nD τ).loc main_arg1))) (Ideal.ofBits .f32 0x46800000#32) := by
  rw [final_o m c]
  funext i
  show Ideal.div (Host.reduceAdd (F := Ideal) (G0 m c) (constant (F := Ideal) S_ .f32 0x00000000#32) reducesTo_S8x1x1_S_d0_1_2 h_S_ i) (Ideal.ofBits .f32 0x46800000#32) = _
  refine congrArg (Ideal.div · _) ?_
  simp only [Host.reduceAdd, Ideal.hostReduceAdd_def]
  refine (Ideal.hostReduceAdd_total reducesTo_S8x1x1_S_d0_1_2 (fun b => b.elim0) (G0 m c) _ i).trans ?_
  show Ideal.ofBits .f32 0x00000000#32 + ∑ j : S8x1x1.Idx, G0 m c j = _
  rw [Ideal.ofBits_zero_f32, zero_add]
  exact sum_G m c

end Cert.KernelIdeal.Hand

end
-- ==== Proof.lean ====
/-
  The smoothness loss, tiled on the accelerator against its plain array formula.

  Both programs compute ( Σ_b Σ_n Σ_m A[b,n,m] · max(‖E[b,n]‖² + ‖E[b,m]‖² − 2⟨E[b,n], E[b,m]⟩, 0) ) / 16384 over eight graphs of
  2048 nodes. The kernel walks 8 · 2 · 2 tiles of 1024 × 1024 weights, keeps a one-cell running sum per graph, folds the
  factor −2 into the left argument of its inner products, and leaves the sum over the eight graphs and the division to four
  host lines; the reference forms the whole 8 × 2048 × 2048 array of clipped squared distances and sums it once.
  Over the extended reals the two agree as soon as every embedding entry is a real number — which the precondition gives —
  because then the factor −2 moves out of the inner product; the rest is a regrouping of finite sums. The weights' finiteness
  is not used.
  Here the five claims are assembled: the two kernel programs' frames from their runs (one text, read at the word level and
  at the extended reals), the reference's frame from its run, the empty list of rewrites, and the equality of results.
-/
import proofs.«135550_j86766929314299_2_alg».proof.Defs
import proofs.«135550_j86766929314299_2_alg».proof.Proof.Gen.Kernel
import proofs.«135550_j86766929314299_2_alg».proof.Proof.Gen.KernelIdeal
import proofs.«135550_j86766929314299_2_alg».proof.Proof.Gen.ReferenceIdeal
import proofs.«135550_j86766929314299_2_alg».proof.Proof.Gen.Pre_finite_inputs
import proofs.«135550_j86766929314299_2_alg».proof.Proof.Gen.ReferenceIdeal.Run
import proofs.«135550_j86766929314299_2_alg».proof.Proof.KLaunch
import proofs.«135550_j86766929314299_2_alg».proof.Proof.KILaunch
import proofs.«135550_j86766929314299_2_alg».proof.Proof.Law
import proofs.«135550_j86766929314299_2_alg».proof.Proof.RefValue
import proofs.«135550_j86766929314299_2_alg».proof.Proof.Finite
import proofs.«135550_j86766929314299_2_alg».proof.Proof.KIValue

noncomputable section

namespace Cert.Proof

open Idealize.ShloMosaic Idealize.ShloMosaic.TcCoe Idealize.SL.Sem

/-- The word-level kernel program runs and leaves its arguments as they were. -/
theorem frame_k : Cert.frame_Kernel := fun m ρ _ => Cert.Kernel.Hand.frame (F := Bits) m ρ

/-- So does the same text read over the extended reals. -/
theorem frame_ki : Cert.frame_KernelIdeal := fun m ρ _ => Cert.KernelIdeal.Hand.frame (F := Ideal) m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Run from memories that agree on the weights and the embeddings, the kernel ends with the tiled total over 16384
    and the reference with the plain total over 16384; the embeddings being real numbers, the totals are one. -/
theorem algebraic : Cert.algebraic_KernelIdeal_ReferenceIdeal := by
  intro m ρ m' ρ' hpre hagree
  refine ⟨fun c _ => Ideal.div (Cert.Smooth.totalK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))) (Ideal.ofBits .f32 0x46800000#32), ?_, ?_⟩
  · exact (θ_run Cert.KernelIdeal.defs _ _).mono (fun _ h c => ⟨((h c).1).trans (Cert.KernelIdeal.Hand.out_value m c), (h c).2.1, (h c).2.2⟩)
      (Cert.KernelIdeal.Hand.run_main (F := Ideal) m ρ)
  · refine (θ_run Cert.ReferenceIdeal.defs _ _).mono (fun _ h c => ⟨?_, (h c).2.1, (h c).2.2⟩)
      (Cert.ReferenceIdeal.Value.run (F := Ideal) m' ρ')
    rw [(h c).1, Cert.Smooth.ref_value, (hagree c).1, (hagree c).2,
      ← Cert.Smooth.totalK_eq_totalR _ _ (fun i => Cert.Smooth.emb_real m hpre c i)]
    rfl

/-- The certificate. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
